-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64x128 .f32) (main_arg9 : FVec F S64 .f32) (main_arg10 : FVec F S64x128 .f32) (main_arg11 : FVec F S1x64 .f32) (main_arg12 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S1x64 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S1x64 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S100000x64 : Shape := ⟨2, ![100000, 64]⟩
abbrev S5000x64 : Shape := ⟨2, ![5000, 64]⟩
abbrev S1x1 : Shape := ⟨2, ![1, 1]⟩
abbrev S5000x1 : Shape := ⟨2, ![5000, 1]⟩
abbrev S5000 : Shape := ⟨1, ![5000]⟩

abbrev nBuf : Space → Nat
  | .hbm => 84
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x64, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x64, .f32⟩
  | .hbm, ⟨80, _⟩ => ⟨S100000x64, .f32⟩
  | .hbm, ⟨81, _⟩ => ⟨S1x1, .f32⟩
  | .hbm, ⟨82, _⟩ => ⟨S100000x1, .f32⟩
  | .hbm, ⟨83, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S64x128, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1_S1x1 : S1.ShapeCasts S1x1
  shapeCasts_S5000x64_S5000x64 : S5000x64.ShapeCasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S1x64, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S128x128, .f32⟩
  | 79 => ⟨S100000x128, .f32⟩
  | 80 => ⟨S1x128, .f32⟩
  | 81 => ⟨S100000x128, .f32⟩
  | 82 => ⟨S100000x128, .f32⟩
  | 83 => ⟨S128x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S128x64, .f32⟩
  | 115 => ⟨S100000x64, .f32⟩
  | 116 => ⟨S1x64, .f32⟩
  | 117 => ⟨S100000x64, .f32⟩
  | 118 => ⟨S100000x64, .f32⟩
  | 119 => ⟨S128x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S64x1, .f32⟩
  | 126 => ⟨S100000x1, .f32⟩
  | 127 => ⟨S1x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_16 : Ref sig .tc := ⟨.hbm, 132, rfl⟩
abbrev main_v95 : Ref sig .tc := ⟨.hbm, 133, rfl⟩
abbrev main_v96 : Ref sig .tc := ⟨.hbm, 134, rfl⟩
abbrev main_cst_17 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel program's run, with every buffer named.

  The program is four kernel regions among five stretches of host operations.  Its run ends with every unscoped buffer of
  every core at the last boundary's contents: the fold of the host stretches and of the regions' write-backs from the launch
  memory.  The frame statement keeps only the argument arrays of that; a value statement needs the result buffer as well, so
  the launch theorem is applied once more here with the whole final valuation kept in the post.
-/
import proofs.«140123_j20615843021436_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Hand

end
-- ==== Proof.Spec.lean ====
/-
  The mathematics of a three-layer neighbourhood-mean graph network with a logistic read-out, entry by entry.

  * A dense layer takes an aggregated array `a` and the node features `h` (both N x K), two weight matrices `Wl`, `Wr`
    (both D x K, contracted along their SECOND axis) and a bias row `b`; its entry (p, q) is
    `max (Σₖ a(p,k)·Wl(q,k) + b(q) + Σₖ h(p,k)·Wr(q,k)) 0`.
  * The read-out takes the last features `h` (N x K), one weight row `w` and one bias `b`; its entry p is the logistic
    function of `Σₖ h(p,k)·w(k) + b`.
  Nothing here mentions a program.
-/
import Idealize.ShloMosaic.PureOps.Ideal
import Idealize.ShloMosaic.Lib.ValueIdx

noncomputable section

open scoped BigOperators

namespace Cert.Sage

open Idealize.ShloMosaic Idealize.ShloMosaic.ValueIdx

/-- The float pattern of zero, as an extended real (kept unevaluated: both programs spell the same pattern). -/
abbrev z32 : EReal := Ideal.ofBits .f32 0x00000000#32

/-- Entry (p, q) of a dense layer. -/
def denseAt {N D K : Nat} (a h : (⟨2, ![N, K]⟩ : Shape).Idx → EReal) (Wl Wr : (⟨2, ![D, K]⟩ : Shape).Idx → EReal)
    (b : (⟨2, ![1, D]⟩ : Shape).Idx → EReal) (p : Fin N) (q : Fin D) : EReal :=
  max (((∑ k : Fin K, a (ix2 p k) * Wl (ix2 q k)) + b (ix2 (0 : Fin 1) q)) + ∑ k : Fin K, h (ix2 p k) * Wr (ix2 q k)) z32

/-- A dense layer as a whole array. -/
def dense {N D K : Nat} (a h : (⟨2, ![N, K]⟩ : Shape).Idx → EReal) (Wl Wr : (⟨2, ![D, K]⟩ : Shape).Idx → EReal)
    (b : (⟨2, ![1, D]⟩ : Shape).Idx → EReal) : (⟨2, ![N, D]⟩ : Shape).Idx → EReal :=
  fun j => denseAt a h Wl Wr b (j 0) (j 1)

theorem dense_apply {N D K : Nat} (a h : (⟨2, ![N, K]⟩ : Shape).Idx → EReal) (Wl Wr : (⟨2, ![D, K]⟩ : Shape).Idx → EReal)
    (b : (⟨2, ![1, D]⟩ : Shape).Idx → EReal) (p : Fin N) (q : Fin D) :
    dense a h Wl Wr b (ix2 p q) = denseAt a h Wl Wr b p q := rfl

/-- A dense layer's entry depends only on row `p` of the two row operands, rows `q` of the two weight matrices and
    lane `q` of the bias. -/
theorem denseAt_congr {N N' D D' K : Nat}
    (a h : (⟨2, ![N, K]⟩ : Shape).Idx → EReal) (a' h' : (⟨2, ![N', K]⟩ : Shape).Idx → EReal)
    (Wl Wr : (⟨2, ![D, K]⟩ : Shape).Idx → EReal) (Wl' Wr' : (⟨2, ![D', K]⟩ : Shape).Idx → EReal)
    (b : (⟨2, ![1, D]⟩ : Shape).Idx → EReal) (b' : (⟨2, ![1, D']⟩ : Shape).Idx → EReal)
    (p : Fin N) (p' : Fin N') (q : Fin D) (q' : Fin D')
    (ha : ∀ k : Fin K, a (ix2 p k) = a' (ix2 p' k)) (hh : ∀ k : Fin K, h (ix2 p k) = h' (ix2 p' k))
    (hl : ∀ k : Fin K, Wl (ix2 q k) = Wl' (ix2 q' k)) (hr : ∀ k : Fin K, Wr (ix2 q k) = Wr' (ix2 q' k))
    (hb : b (ix2 (0 : Fin 1) q) = b' (ix2 (0 : Fin 1) q')) :
    denseAt a h Wl Wr b p q = denseAt a' h' Wl' Wr' b' p' q' := by
  unfold denseAt
  rw [hb]
  simp only [ha, hh, hl, hr]

/-- Entry p of the logistic read-out. -/
def readoutAt {N K : Nat} (h : (⟨2, ![N, K]⟩ : Shape).Idx → EReal) (w : (⟨2, ![1, K]⟩ : Shape).Idx → EReal)
    (b : (⟨2, ![1, 1]⟩ : Shape).Idx → EReal) (p : Fin N) : EReal :=
  Ideal.logistic ((∑ k : Fin K, h (ix2 p k) * w (ix2 (0 : Fin 1) k)) + b (ix2 (0 : Fin 1) (0 : Fin 1)))

/-- The read-out as a column [N, 1]. -/
def readout {N K : Nat} (h : (⟨2, ![N, K]⟩ : Shape).Idx → EReal) (w : (⟨2, ![1, K]⟩ : Shape).Idx → EReal)
    (b : (⟨2, ![1, 1]⟩ : Shape).Idx → EReal) : (⟨2, ![N, 1]⟩ : Shape).Idx → EReal :=
  fun j => readoutAt h w b (j 0)

theorem readout_apply {N K : Nat} (h : (⟨2, ![N, K]⟩ : Shape).Idx → EReal) (w : (⟨2, ![1, K]⟩ : Shape).Idx → EReal)
    (b : (⟨2, ![1, 1]⟩ : Shape).Idx → EReal) (p : Fin N) (q : Fin 1) :
    readout h w b (ix2 p q) = readoutAt h w b p := rfl

/-- The float pattern of one is the real number one. -/
theorem ofBits_one : Ideal.ofBits .f32 0x3F800000#32 = (1 : EReal) := by
  simp [Ideal.ofBits, Ideal.ieee, -EReal.coe_mul]
  norm_num

end Cert.Sage

end
-- ==== Proof.KDefs.lean ====
/-
  The kernel program's host-side steps, named.

  Between its kernel regions the program prepares, on the host, the aggregated operand of each dense layer from the
  previous layer's output `h` and the edge list: the source and destination rows of the edge list, the degree-derived
  factor `1 / max deg 1` (a column), and `agg h = (scatter-add over destinations of the rows of h gathered at the sources)
  times that factor`.  The definitions below are those steps, as functions of the arrays they read; the layers' outputs
  and the program's result are then compositions of them with the dense layer and the read-out.
-/
import proofs.«140123_j20615843021436_2_alg».proof.Proof.Gen.KernelIdeal
import proofs.«140123_j20615843021436_2_alg».proof.Proof.Spec

noncomputable section

namespace Cert.KernelIdeal.HostVal

open Cert.KernelIdeal Cert.KernelIdeal.Gen Idealize.ShloMosaic

abbrev Edges := (⟨S2x1600000, .i32⟩ : BufTy).Contents (Elt Ideal)
abbrev EdgeRow := (⟨S1600000, .i32⟩ : BufTy).Contents (Elt Ideal)
abbrev Feat := (⟨S100000x128, .f32⟩ : BufTy).Contents (Elt Ideal)
abbrev Feat64 := (⟨S100000x64, .f32⟩ : BufTy).Contents (Elt Ideal)
abbrev Col := (⟨S100000x1, .f32⟩ : BufTy).Contents (Elt Ideal)
abbrev W128 := (⟨S128x128, .f32⟩ : BufTy).Contents (Elt Ideal)
abbrev W64 := (⟨S64x128, .f32⟩ : BufTy).Contents (Elt Ideal)
abbrev B128 := (⟨S128, .f32⟩ : BufTy).Contents (Elt Ideal)
abbrev B64 := (⟨S64, .f32⟩ : BufTy).Contents (Elt Ideal)

/-- The edges' source rows. -/
def src (x1 : Edges) : EdgeRow :=
  shapeCast S1600000 (extractStridedSlice S1x1600000 ![0, 0] x1 slices_S2x1600000_S1x1600000_0_0) shapeCasts_S1x1600000_S1600000
/-- The edges' destination rows. -/
def dst (x1 : Edges) : EdgeRow :=
  shapeCast S1600000 (extractStridedSlice S1x1600000 ![1, 0] x1 slices_S2x1600000_S1x1600000_1_0) shapeCasts_S1x1600000_S1600000

/-- The in-degree of every row: one added at each edge's destination. -/
def degraw (d : EdgeRow) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The in-degree of every row, raised to at least one. -/
def degc (d : EdgeRow) : (⟨S100000, .f32⟩ : BufTy).Contents (Elt Ideal) :=
  maximumf (F := Ideal) (s := S100000) (φ := .f32) (degraw d)
    (broadcastInDim S100000 ![] bcast_S_S100000 (constant (F := Ideal) S_ .f32 0x3F800000#32))

/-- The reciprocal of the clamped degree, kept as a column. -/
def invc (d : EdgeRow) : Col :=
  broadcastInDim S100000x1 ![0] bcast_S100000_S100000x1_0
    (Host.divf (F := Ideal) (broadcastInDim S100000 ![] bcast_S_S100000 (constant (F := Ideal) S_ .f32 0x3F800000#32)) (degc d))

/-- The sum, into each destination row, of the rows of `h` at the edges' sources (negative sources counted from the end). -/
def nbsum (h : Feat) (s d : EdgeRow) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select
          (cmpi CmpIPredicate.slt s (broadcastInDim S1600000 ![] bcast_S_S1600000 (constantI S_ 32 0#32)))
          (addi s (broadcastInDim S1600000 ![] bcast_S_S1600000 (constantI S_ 32 100000#32)))
          s)))

/-- The aggregated operand: the neighbourhood sums times the reciprocal column laid along the lanes. -/
def agg (h : Feat) (s d : EdgeRow) (ic : Col) : Feat :=
  mulf (F := Ideal) (s := S100000x128) (φ := .f32) (nbsum h s d) (broadcastInDim S100000x128 ![0, 1] bcast_S100000x1_S100000x128_0_1 ic)

/-- The aggregated operand from the edge list. -/
abbrev aggE (h : Feat) (x1 : Edges) : Feat := agg h (src x1) (dst x1) (invc (dst x1))

/-- The first layer's output. -/
def H1 (x0 : Feat) (x1 : Edges) (x2 : W128) (x3 : B128) (x4 : W128) : Feat :=
  Cert.Sage.dense (aggE x0 x1) x0 x2 x4 (shapeCast S1x128 x3 shapeCasts_S128_S1x128)
/-- The second layer's output. -/
def H2 (x0 : Feat) (x1 : Edges) (x2 : W128) (x3 : B128) (x4 x5 : W128) (x6 : B128) (x7 : W128) : Feat :=
  Cert.Sage.dense (aggE (H1 x0 x1 x2 x3 x4) x1) (H1 x0 x1 x2 x3 x4) x5 x7 (shapeCast S1x128 x6 shapeCasts_S128_S1x128)
/-- The third layer's output. -/
def H3 (x0 : Feat) (x1 : Edges) (x2 : W128) (x3 : B128) (x4 x5 : W128) (x6 : B128) (x7 : W128) (x8 : W64) (x9 : B64) (x10 : W64) : Feat64 :=
  Cert.Sage.dense (aggE (H2 x0 x1 x2 x3 x4 x5 x6 x7) x1) (H2 x0 x1 x2 x3 x4 x5 x6 x7) x8 x10 (shapeCast S1x64 x9 shapeCasts_S64_S1x64)
/-- The program's result: the read-out of the third layer's output, as a flat vector. -/
def Out (x0 : Feat) (x1 : Edges) (x2 : W128) (x3 : B128) (x4 x5 : W128) (x6 : B128) (x7 : W128) (x8 : W64) (x9 : B64) (x10 : W64)
    (x11 : (⟨S1x64, .f32⟩ : BufTy).Contents (Elt Ideal)) (x12 : (⟨S1, .f32⟩ : BufTy).Contents (Elt Ideal)) :
    (⟨S100000, .f32⟩ : BufTy).Contents (Elt Ideal) :=
  shapeCast S100000 (Cert.Sage.readout (H3 x0 x1 x2 x3 x4 x5 x6 x7 x8 x9 x10) x11 (shapeCast S1x1 x12 shapeCasts_S1_S1x1)) shapeCasts_S100000x1_S100000

end Cert.KernelIdeal.HostVal

end
-- ==== Proof.LibMatmulNT.lean ====
/-
  A matrix product against a transposed right operand, read at an entry.

  A matrix unit's product of an M x K matrix by an N x K matrix, both contracted along their SECOND axis and accumulated
  into the zero matrix, holds at entry (p, c) the sum over k of the left matrix at (p, k) times the right matrix at
  (c, k): at the exact extended reals there is no rounding and no order of accumulation left, and the zero accumulator
  adds nothing.  The same reading holds for a host program's contraction of that pattern.

  The product's dimension numbers arrive as a record; what is used of it is only that it contracts one axis of extent K
  and how it places the coordinates: the left operand is read at (row of the result, k), the right operand at
  (column of the result, k).  These placement facts are hypotheses, so the lemmas serve any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.MatmulNT

open Idealize.ShloMosaic Idealize.ShloMosaic.ValueIdx

/-- Entry (p, c) of an M x K by (N x K)ᵀ product into the zero accumulator is the sum over k of left (p, k) * right (c, k). -/
theorem matmul_nt_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂) (p : Fin M) (c : Fin N) :
    matmul D prec l r (constant (F := Ideal) (⟨2, ![M, N]⟩ : Shape) .f32 0x00000000#32) (ix2 p c)
      = ∑ k : Fin K, l (ix2 p k) * r (ix2 c k) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.MatmulNT

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.Region0.lean ====
/-
  Kernel region 0: one dense layer over 100000 rows, computed 5000 rows at a time.

  The region's body loads a block of 5000 rows of the aggregated array and of the node features, the two weight matrices
  and the bias row, and stores `max (agg·Wlᵀ + b + h·Wrᵀ) 0` for those rows (the roundings to a narrower float format on
  the way into the matrix unit are the identity on the extended reals).  Point `t` of the grid handles rows
  `5000·t … 5000·t + 4999`; the twenty points cover every row, and an entry of the result depends only on its own row of
  the two row-blocked operands.  So the result array after the region is the dense layer of the arrays the region found,
  whatever those were.
-/
import proofs.«140123_j20615843021436_2_alg».proof.Proof.Gen.KernelIdeal.Frame
import proofs.«140123_j20615843021436_2_alg».proof.Proof.Spec
import proofs.«140123_j20615843021436_2_alg».proof.Proof.LibMatmulNT
import proofs.«140123_j20615843021436_2_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand0

open Cert.KernelIdeal Cert.KernelIdeal.Gen
open Idealize.ShloMosaic Idealize.ShloMosaic.TcCoe Idealize.ShloMosaic.ValueIdx Idealize.SL.Sem
open Idealize.ShloMosaic.Pipeline (Dat)

/-- The region's contraction: both operands contracted along their second axis. -/
abbrev DD := dot_S5000x128_S128x128_S5000x128_1_1_0_0_n_n

theorem DD_l0 (j : S5000x128.Idx) (q : DD.contr.Idx) : (DD.lhsIdx j q 0).val = (j 0).val := by
  unfold DotDims.lhsIdx
  rw [dif_neg (show ¬(0 : Fin S5000x128.rank) ∈ DD.lhsBatch by decide), dif_pos (show (0 : Fin S5000x128.rank) ∈ DD.lhsNonContracting by decide)]
  rfl
theorem DD_l1 (j : S5000x128.Idx) (q : DD.contr.Idx) : (DD.lhsIdx j q 1).val = (q ⟨0, by decide⟩).val :=
  DD.lhsIdx_val_of_single rfl j q
theorem DD_r0 (j : S5000x128.Idx) (q : DD.contr.Idx) : (DD.rhsIdx j q 0).val = (j 1).val := by
  unfold DotDims.rhsIdx
  rw [dif_neg (show ¬(0 : Fin S128x128.rank) ∈ DD.rhsBatch by decide), dif_pos (show (0 : Fin S128x128.rank) ∈ DD.rhsNonContracting by decide)]
  rfl
theorem DD_r1 (j : S5000x128.Idx) (q : DD.contr.Idx) : (DD.rhsIdx j q 1).val = (q ⟨0, by decide⟩).val :=
  DD.rhsIdx_val_of_single rfl j q

/-- The body's stored value at row `p`, lane `q` of the block is the dense layer's entry of the loaded blocks. -/
theorem pay_apply (x0 x1 : Vec Ideal S5000x128 .f32) (x2 x3 : Vec Ideal S128x128 .f32) (x4 : Vec Ideal S1x128 .f32) (p : Fin 5000) (q : Fin 128) :
    k0_pay1 x0 x1 x2 x3 x4 (ix2 p q) = Cert.Sage.denseAt x0 x1 x2 x3 x4 p q := by
  unfold k0_pay1 Cert.Sage.denseAt
  simp only [maximumf_apply, addf_apply, broadcast_apply]
  rw [Cert.MatmulNT.matmul_nt_zero_apply DD rfl rfl DD_l0 DD_l1 DD_r0 DD_r1, Cert.MatmulNT.matmul_nt_zero_apply DD rfl rfl DD_l0 DD_l1 DD_r0 DD_r1,
    Cert.RowBias.bcastRow_apply]
  simp only [truncf_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked operands and the result move with the point, the
    weights and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated operand's block at point `t` is row `5000·t + p` of the array. -/
theorem blk0_apply (c : Dev nD) (t : Fin cfg0.N) (p : Fin 5000) (k : Fin 128) (r : Fin 100000) (hr : r.val = t.val * 5000 + p.val) :
    (iblk0 V c 0 t : Vec Ideal S5000x128 .f32) (ix2 p k) = (V c main_v24 : S100000x128.Idx → EReal) (ix2 r k) := by
  obtain ⟨e0, e1, -⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the node features' block at point `t` is row `5000·t + p` of the array. -/
theorem blk1_apply (c : Dev nD) (t : Fin cfg0.N) (p : Fin 5000) (k : Fin 128) (r : Fin 100000) (hr : r.val = t.val * 5000 + p.val) :
    (iblk0 V c 1 t : Vec Ideal S5000x128 .f32) (ix2 p k) = (V c main_arg0 : S100000x128.Idx → EReal) (ix2 r k) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The first weight matrix's one block is the matrix. -/
theorem blk2_apply (c : Dev nD) (t : Fin cfg0.N) (q : Fin 128) (k : Fin 128) :
    (iblk0 V c 2 t : Vec Ideal S128x128 .f32) (ix2 q k) = (V c main_arg2 : S128x128.Idx → EReal) (ix2 q k) := by
  obtain ⟨-, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * q.val = q.val; rw [e0]; omega
  | ⟨1, _⟩ => show win0_2.index t (1 : Fin 2) * 128 + 1 * k.val = k.val; rw [e1]; omega

/-- The second weight matrix's one block is the matrix. -/
theorem blk3_apply (c : Dev nD) (t : Fin cfg0.N) (q : Fin 128) (k : Fin 128) :
    (iblk0 V c 3 t : Vec Ideal S128x128 .f32) (ix2 q k) = (V c main_arg4 : S128x128.Idx → EReal) (ix2 q k) := by
  obtain ⟨-, -, -, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- The bias row's one block is the row. -/
theorem blk4_apply (c : Dev nD) (t : Fin cfg0.N) (q : Fin 128) :
    (iblk0 V c 4 t : Vec Ideal S1x128 .f32) (ix2 (0 : Fin 1) q) = (V c main_v25 : S1x128.Idx → EReal) (ix2 (0 : Fin 1) q) := by
  obtain ⟨-, -, -, -, -, -, -, -, e0, e1, -⟩ := idx_facts t
  unfold iblk0
  rw [View.read_apply]
  show V c main_v25 _ = V c main_v25 _
  refine congrArg (V c main_v25) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The dense layer of the arrays the region finds. -/
abbrev result (c : Dev nD) : S100000x128.Idx → EReal :=
  Cert.Sage.dense (V c main_v24 : S100000x128.Idx → EReal) (V c main_arg0 : S100000x128.Idx → EReal)
    (V c main_arg2 : S128x128.Idx → EReal) (V c main_arg4 : S128x128.Idx → EReal) (V c main_v25 : S1x128.Idx → EReal)

/-- What point `t` writes back is block `t` of the dense layer of the arrays the region finds. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e50, e51⟩ := idx_facts t
  have hN : cfg0.N = 20 := N_0
  have hr : t.val * 5000 + p.val < 100000 := by have := t.isLt; have := p.isLt; omega
  have hemb : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  refine (pay_apply (iblk0 V c 0 t) (iblk0 V c 1 t) (iblk0 V c 2 t) (iblk0 V c 3 t) (iblk0 V c 4 t) p q).trans ?_
  show _ = result V c (((cfg0.win 5).blk t).view.emb (ix2 p q))
  rw [hemb]
  show _ = Cert.Sage.denseAt _ _ _ _ _ (⟨t.val * 5000 + p.val, hr⟩ : Fin 100000) q
  exact Cert.Sage.denseAt_congr _ _ _ _ _ _ _ _ _ _ p _ q q
    (fun k => blk0_apply V c t p k _ rfl) (fun k => blk1_apply V c t p k _ rfl)
    (fun k => blk2_apply V c t q k) (fun k => blk3_apply V c t q k) (blk4_apply V c t q)

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the result is written by point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]
    omega

/-- The result array after the region is the dense layer of the arrays the region found. -/
theorem region_arr (c : Dev nD) : (dat0 (F := Ideal) V c).arrAt 5 cfg0.N = result V c :=
  (dat0 (F := Ideal) V c).arrAt_eq_of_cover 5 (result V c) (fun t _ => flushed_eq V c t) (cover)

end Cert.KernelIdeal.Hand0

end
-- ==== Proof.Region1.lean ====
/-
  Kernel region 1: one dense layer over 100000 rows, computed 5000 rows at a time.

  The region's body loads a block of 5000 rows of the aggregated array and of the node features, the two weight matrices
  and the bias row, and stores `max (agg·Wlᵀ + b + h·Wrᵀ) 0` for those rows (the roundings to a narrower float format on
  the way into the matrix unit are the identity on the extended reals).  Point `t` of the grid handles rows
  `5000·t … 5000·t + 4999`; the twenty points cover every row, and an entry of the result depends only on its own row of
  the two row-blocked operands.  So the result array after the region is the dense layer of the arrays the region found,
  whatever those were.
-/
import proofs.«140123_j20615843021436_2_alg».proof.Proof.Gen.KernelIdeal.Frame
import proofs.«140123_j20615843021436_2_alg».proof.Proof.Spec
import proofs.«140123_j20615843021436_2_alg».proof.Proof.LibMatmulNT
import proofs.«140123_j20615843021436_2_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand1

open Cert.KernelIdeal Cert.KernelIdeal.Gen
open Idealize.ShloMosaic Idealize.ShloMosaic.TcCoe Idealize.ShloMosaic.ValueIdx Idealize.SL.Sem
open Idealize.ShloMosaic.Pipeline (Dat)

/-- The region's contraction: both operands contracted along their second axis. -/
abbrev DD := dot_S5000x128_S128x128_S5000x128_1_1_0_0_n_n

theorem DD_l0 (j : S5000x128.Idx) (q : DD.contr.Idx) : (DD.lhsIdx j q 0).val = (j 0).val := by
  unfold DotDims.lhsIdx
  rw [dif_neg (show ¬(0 : Fin S5000x128.rank) ∈ DD.lhsBatch by decide), dif_pos (show (0 : Fin S5000x128.rank) ∈ DD.lhsNonContracting by decide)]
  rfl
theorem DD_l1 (j : S5000x128.Idx) (q : DD.contr.Idx) : (DD.lhsIdx j q 1).val = (q ⟨0, by decide⟩).val :=
  DD.lhsIdx_val_of_single rfl j q
theorem DD_r0 (j : S5000x128.Idx) (q : DD.contr.Idx) : (DD.rhsIdx j q 0).val = (j 1).val := by
  unfold DotDims.rhsIdx
  rw [dif_neg (show ¬(0 : Fin S128x128.rank) ∈ DD.rhsBatch by decide), dif_pos (show (0 : Fin S128x128.rank) ∈ DD.rhsNonContracting by decide)]
  rfl
theorem DD_r1 (j : S5000x128.Idx) (q : DD.contr.Idx) : (DD.rhsIdx j q 1).val = (q ⟨0, by decide⟩).val :=
  DD.rhsIdx_val_of_single rfl j q

/-- The body's stored value at row `p`, lane `q` of the block is the dense layer's entry of the loaded blocks. -/
theorem pay_apply (x0 x1 : Vec Ideal S5000x128 .f32) (x2 x3 : Vec Ideal S128x128 .f32) (x4 : Vec Ideal S1x128 .f32) (p : Fin 5000) (q : Fin 128) :
    k1_pay1 x0 x1 x2 x3 x4 (ix2 p q) = Cert.Sage.denseAt x0 x1 x2 x3 x4 p q := by
  unfold k1_pay1 Cert.Sage.denseAt
  simp only [maximumf_apply, addf_apply, broadcast_apply]
  rw [Cert.MatmulNT.matmul_nt_zero_apply DD rfl rfl DD_l0 DD_l1 DD_r0 DD_r1, Cert.MatmulNT.matmul_nt_zero_apply DD rfl rfl DD_l0 DD_l1 DD_r0 DD_r1,
    Cert.RowBias.bcastRow_apply]
  simp only [truncf_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked operands and the result move with the point, the
    weights and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated operand's block at point `t` is row `5000·t + p` of the array. -/
theorem blk0_apply (c : Dev nD) (t : Fin cfg1.N) (p : Fin 5000) (k : Fin 128) (r : Fin 100000) (hr : r.val = t.val * 5000 + p.val) :
    (iblk1 V c 0 t : Vec Ideal S5000x128 .f32) (ix2 p k) = (V c main_v38 : S100000x128.Idx → EReal) (ix2 r k) := by
  obtain ⟨e0, e1, -⟩ := idx_facts t
  unfold iblk1
  rw [View.read_apply]
  show V c main_v38 _ = V c main_v38 _
  refine congrArg (V c main_v38) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of the node features' block at point `t` is row `5000·t + p` of the array. -/
theorem blk1_apply (c : Dev nD) (t : Fin cfg1.N) (p : Fin 5000) (k : Fin 128) (r : Fin 100000) (hr : r.val = t.val * 5000 + p.val) :
    (iblk1 V c 1 t : Vec Ideal S5000x128 .f32) (ix2 p k) = (V c main_v26 : S100000x128.Idx → EReal) (ix2 r k) := by
  obtain ⟨-, -, e0, e1, -⟩ := idx_facts t
  unfold iblk1
  rw [View.read_apply]
  show V c main_v26 _ = V c main_v26 _
  refine congrArg (V c main_v26) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight matrix's one block is the matrix. -/
theorem blk2_apply (c : Dev nD) (t : Fin cfg1.N) (q : Fin 128) (k : Fin 128) :
    (iblk1 V c 2 t : Vec Ideal S128x128 .f32) (ix2 q k) = (V c main_arg5 : S128x128.Idx → EReal) (ix2 q k) := by
  obtain ⟨-, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_2.index t (0 : Fin 2) * 128 + 1 * q.val = q.val; rw [e0]; omega
  | ⟨1, _⟩ => show win1_2.index t (1 : Fin 2) * 128 + 1 * k.val = k.val; rw [e1]; omega

/-- The second weight matrix's one block is the matrix. -/
theorem blk3_apply (c : Dev nD) (t : Fin cfg1.N) (q : Fin 128) (k : Fin 128) :
    (iblk1 V c 3 t : Vec Ideal S128x128 .f32) (ix2 q k) = (V c main_arg7 : S128x128.Idx → EReal) (ix2 q k) := by
  obtain ⟨-, -, -, -, -, -, e0, e1, -⟩ := idx_facts t
  unfold iblk1
  rw [View.read_apply]
  show V c main_arg7 _ = V c main_arg7 _
  refine congrArg (V c main_arg7) (funext fun a => Fin.ext ?_)
  match a with
  | ⟨0, _⟩ => show win1_3.index t (0 : Fin 2) * 128 + 1 * q.val = q.val; rw [e0]; omega
  | ⟨1, _⟩ => show win1_3.index t (1 : Fin 2) * 128 + 1 * k.val = k.val; rw [e1]; omega

/-- The bias row's one block is the row. -/
theorem blk4_apply (c : Dev nD) (t : Fin cfg1.N) (q : Fin 128) :
    (iblk1 V c 4 t : Vec Ideal S1x128 .f32) (ix2 (0 : Fin 1) q) = (V c main_v39 : S1x128.Idx → EReal) (ix2 (0 : Fin 1) q) := by
  obtain ⟨-, -, -, -, -, -, -, -, e0, e1, -⟩ := idx_facts t
  unfold iblk1
  rw [View.read_apply]
  show V c main_v39 _ = V c main_v39 _
  refine congrArg (V c main_v39) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- The dense layer of the arrays the region finds. -/
abbrev result (c : Dev nD) : S100000x128.Idx → EReal :=
  Cert.Sage.dense (V c main_v38 : S100000x128.Idx → EReal) (V c main_v26 : S100000x128.Idx → EReal)
    (V c main_arg5 : S128x128.Idx → EReal) (V c main_arg7 : S128x128.Idx → EReal) (V c main_v39 : S1x128.Idx → EReal)

/-- What point `t` writes back is block `t` of the dense layer of the arrays the region finds. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e50, e51⟩ := idx_facts t
  have hN : cfg1.N = 20 := N_1
  have hr : t.val * 5000 + p.val < 100000 := by have := t.isLt; have := p.isLt; omega
  have hemb : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 128 + 1 * q.val = q.val; rw [e51]; omega
  refine (pay_apply (iblk1 V c 0 t) (iblk1 V c 1 t) (iblk1 V c 2 t) (iblk1 V c 3 t) (iblk1 V c 4 t) p q).trans ?_
  show _ = result V c (((cfg1.win 5).blk t).view.emb (ix2 p q))
  rw [hemb]
  show _ = Cert.Sage.denseAt _ _ _ _ _ (⟨t.val * 5000 + p.val, hr⟩ : Fin 100000) q
  exact Cert.Sage.denseAt_congr _ _ _ _ _ _ _ _ _ _ p _ q q
    (fun k => blk0_apply V c t p k _ rfl) (fun k => blk1_apply V c t p k _ rfl)
    (fun k => blk2_apply V c t q k) (fun k => blk3_apply V c t q k) (blk4_apply V c t q)

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Row `r` of the result is written by point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- The result array after the region is the dense layer of the arrays the region found. -/
theorem region_arr (c : Dev nD) : (dat1 (F := Ideal) V c).arrAt 5 cfg1.N = result V c :=
  (dat1 (F := Ideal) V c).arrAt_eq_of_cover 5 (result V c) (fun t _ => flushed_eq V c t) (cover)

end Cert.KernelIdeal.Hand1

end
-- ==== Proof.Region2.lean ====
/-
  Kernel region 2: one dense layer over 100000 rows, computed 5000 rows at a time.

  The region's body loads a block of 5000 rows of the aggregated array and of the node features, the two weight matrices
  and the bias row, and stores `max (agg·Wlᵀ + b + h·Wrᵀ) 0` for those rows (the roundings to a narrower float format on
  the way into the matrix unit are the identity on the extended reals).  Point `t` of the grid handles rows
  `5000·t … 5000·t + 4999`; the twenty points cover every row, and an entry of the result depends only on its own row of
  the two row-blocked operands.  So the result array after the region is the dense layer of the arrays the region found,
  whatever those were.
-/
import proofs.«140123_j20615843021436_2_alg».proof.Proof.Gen.KernelIdeal.Frame
import proofs.«140123_j20615843021436_2_alg».proof.Proof.Spec
import proofs.«140123_j20615843021436_2_alg».proof.Proof.LibMatmulNT
import proofs.«140123_j20615843021436_2_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand2

open Cert.KernelIdeal Cert.KernelIdeal.Gen
open Idealize.ShloMosaic Idealize.ShloMosaic.TcCoe Idealize.ShloMosaic.ValueIdx Idealize.SL.Sem
open Idealize.ShloMosaic.Pipeline (Dat)

/-- The region's contraction: both operands contracted along their second axis. -/
abbrev DD := dot_S5000x128_S64x128_S5000x64_1_1_0_0_n_n

theorem DD_l0 (j : S5000x64.Idx) (q : DD.contr.Idx) : (DD.lhsIdx j q 0).val = (j 0).val := by
  unfold DotDims.lhsIdx
  rw [dif_neg (show ¬(0 : Fin S5000x128.rank) ∈ DD.lhsBatch by decide), dif_pos (show (0 : Fin S5000x128.rank) ∈ DD.lhsNonContracting by decide)]
  rfl
theorem DD_l1 (j : S5000x64.Idx) (q : DD.contr.Idx) : (DD.lhsIdx j q 1).val = (q ⟨0, by decide⟩).val :=
  DD.lhsIdx_val_of_single rfl j q
theorem DD_r0 (j : S5000x64.Idx) (q : DD.contr.Idx) : (DD.rhsIdx j q 0).val = (j 1).val := by
  unfold DotDims.rhsIdx
  rw [dif_neg (show ¬(0 : Fin S64x128.rank) ∈ DD.rhsBatch by decide), dif_pos (show (0 : Fin S64x128.rank) ∈ DD.rhsNonContracting by decide)]
  rfl
theorem DD_r1 (j : S5000x64.Idx) (q : DD.contr.Idx) : (DD.rhsIdx j q 1).val = (q ⟨0, by decide⟩).val :=
  DD.rhsIdx_val_of_single rfl j q

/-- The body's stored value at row `p`, lane `q` of the block is the dense layer's entry of the loaded blocks. -/
theorem pay_apply (x0 x1 : Vec Ideal S5000x128 .f32) (x2 x3 : Vec Ideal S64x128 .f32) (x4 : Vec Ideal S1x64 .f32) (p : Fin 5000) (q : Fin 64) :
    k2_pay1 x0 x1 x2 x3 x4 (ix2 p q) = Cert.Sage.denseAt x0 x1 x2 x3 x4 p q := by
  unfold k2_pay1 Cert.Sage.denseAt
  simp only [maximumf_apply, addf_apply, broadcast_apply]
  rw [Cert.MatmulNT.matmul_nt_zero_apply DD rfl rfl DD_l0 DD_l1 DD_r0 DD_r1, Cert.MatmulNT.matmul_nt_zero_apply DD rfl rfl DD_l0 DD_l1 DD_r0 DD_r1,
    Cert.RowBias.bcastRow_apply]
  simp only [truncf_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked operands and the result move with the point, the
    weights and the bias stay at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregated operand's block at point `t` is row `5000·t + p` of the array. -/
theorem blk0_apply (c : Dev nD) (t : Fin cfg2.N) (p : Fin 5000) (k : Fin 128) (r : Fin 100000) (hr : r.val = t.val * 5000 + p.val) :
    (iblk2 V c 0 t : Vec Ideal S5000x128 .f32) (ix2 p k) = (V c main_v52 : S100000x128.Idx → EReal) (ix2 r k) := by
  obtain ⟨e0, e1, -⟩ := idx_facts t
  unfold iblk2
  rw [View.read_apply]
  show V c main_v52 _ = V c main_v52 _
  refine congrArg (V c main_v52) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row `p` of the node features' block at point `t` is row `5000·t + p` of the array. -/
theorem blk1_apply (c : Dev nD) (t : Fin cfg2.N) (p : Fin 5000) (k : Fin 128) (r : Fin 100000) (hr : r.val = t.val * 5000 + p.val) :
    (iblk2 V c 1 t : Vec Ideal S5000x128 .f32) (ix2 p k) = (V c main_v40 : S100000x128.Idx → EReal) (ix2 r k) := by
  obtain ⟨-, -, e0, e1, -⟩ := idx_facts t
  unfold iblk2
  rw [View.read_apply]
  show V c main_v40 _ = V c main_v40 _
  refine congrArg (V c main_v40) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The first weight matrix's one block is the matrix. -/
theorem blk2_apply (c : Dev nD) (t : Fin cfg2.N) (q : Fin 64) (k : Fin 128) :
    (iblk2 V c 2 t : Vec Ideal S64x128 .f32) (ix2 q k) = (V c main_arg8 : S64x128.Idx → EReal) (ix2 q k) := by
  obtain ⟨-, -, -, -, e0, e1, -⟩ := idx_facts t
  unfold iblk2
  rw [View.read_apply]
  show V c main_arg8 _ = V c main_arg8 _
  refine congrArg (V c main_arg8) (funext fun a => Fin.ext ?_)
  match a with
  | ⟨0, _⟩ => show win2_2.index t (0 : Fin 2) * 64 + 1 * q.val = q.val; rw [e0]; omega
  | ⟨1, _⟩ => show win2_2.index t (1 : Fin 2) * 128 + 1 * k.val = k.val; rw [e1]; omega

/-- The second weight matrix's one block is the matrix. -/
theorem blk3_apply (c : Dev nD) (t : Fin cfg2.N) (q : Fin 64) (k : Fin 128) :
    (iblk2 V c 3 t : Vec Ideal S64x128 .f32) (ix2 q k) = (V c main_arg10 : S64x128.Idx → EReal) (ix2 q k) := by
  obtain ⟨-, -, -, -, -, -, e0, e1, -⟩ := idx_facts t
  unfold iblk2
  rw [View.read_apply]
  show V c main_arg10 _ = V c main_arg10 _
  refine congrArg (V c main_arg10) (funext fun a => Fin.ext ?_)
  match a with
  | ⟨0, _⟩ => show win2_3.index t (0 : Fin 2) * 64 + 1 * q.val = q.val; rw [e0]; omega
  | ⟨1, _⟩ => show win2_3.index t (1 : Fin 2) * 128 + 1 * k.val = k.val; rw [e1]; omega

/-- The bias row's one block is the row. -/
theorem blk4_apply (c : Dev nD) (t : Fin cfg2.N) (q : Fin 64) :
    (iblk2 V c 4 t : Vec Ideal S1x64 .f32) (ix2 (0 : Fin 1) q) = (V c main_v53 : S1x64.Idx → EReal) (ix2 (0 : Fin 1) q) := by
  obtain ⟨-, -, -, -, -, -, -, -, e0, e1, -⟩ := idx_facts t
  unfold iblk2
  rw [View.read_apply]
  show V c main_v53 _ = V c main_v53 _
  refine congrArg (V c main_v53) (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- The dense layer of the arrays the region finds. -/
abbrev result (c : Dev nD) : S100000x64.Idx → EReal :=
  Cert.Sage.dense (V c main_v52 : S100000x128.Idx → EReal) (V c main_v40 : S100000x128.Idx → EReal)
    (V c main_arg8 : S64x128.Idx → EReal) (V c main_arg10 : S64x128.Idx → EReal) (V c main_v53 : S1x64.Idx → EReal)

/-- What point `t` writes back is block `t` of the dense layer of the arrays the region finds. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S64x128) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e50, e51⟩ := idx_facts t
  have hN : cfg2.N = 20 := N_2
  have hr : t.val * 5000 + p.val < 100000 := by have := t.isLt; have := p.isLt; omega
  have hemb : ((cfg2.win 5).blk t).view.emb (ix2 p q) = ix2 (⟨t.val * 5000 + p.val, hr⟩ : Fin 100000) q := by
    funext a; apply Fin.ext
    match a with
    | ⟨0, _⟩ => show win2_5.index t (0 : Fin 2) * 5000 + 1 * p.val = t.val * 5000 + p.val; rw [e50]; omega
    | ⟨1, _⟩ => show win2_5.index t (1 : Fin 2) * 64 + 1 * q.val = q.val; rw [e51]; omega
  refine (pay_apply (iblk2 V c 0 t) (iblk2 V c 1 t) (iblk2 V c 2 t) (iblk2 V c 3 t) (iblk2 V c 4 t) p q).trans ?_
  show _ = result V c (((cfg2.win 5).blk t).view.emb (ix2 p q))
  rw [hemb]
  show _ = Cert.Sage.denseAt _ _ _ _ _ (⟨t.val * 5000 + p.val, hr⟩ : Fin 100000) q
  exact Cert.Sage.denseAt_congr _ _ _ _ _ _ _ _ _ _ p _ q q
    (fun k => blk0_apply V c t p k _ rfl) (fun k => blk1_apply V c t p k _ rfl)
    (fun k => blk2_apply V c t q k) (fun k => blk3_apply V c t q k) (blk4_apply V c t q)

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- Row `r` of the result is written by point `r / 5000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, -, -, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e51]
    omega

/-- The result array after the region is the dense layer of the arrays the region found. -/
theorem region_arr (c : Dev nD) : (dat2 (F := Ideal) V c).arrAt 5 cfg2.N = result V c :=
  (dat2 (F := Ideal) V c).arrAt_eq_of_cover 5 (result V c) (fun t _ => flushed_eq V c t) (cover)

end Cert.KernelIdeal.Hand2

end
-- ==== Proof.Region3.lean ====
/-
  The classify region of the kernel program, read as mathematics: after its 20 grid points the output column holds, at
  row r, the logistic function of the r-th feature row's product with the weight row plus the bias — the read-out of the
  three arrays as the region finds them. Each point multiplies its 5000 x 64 block by the broadcast weight row, sums
  the 64 lanes, adds the broadcast bias and applies the logistic function; point t's block is rows 5000 t … 5000 t + 4999,
  and the 20 blocks tile the 100000 rows.
-/
import proofs.«140123_j20615843021436_2_alg».proof.Proof.Gen.KernelIdeal.Frame
import proofs.«140123_j20615843021436_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Hand3

open Cert.KernelIdeal Cert.KernelIdeal.Gen

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 64 lanes of a `[5000, 64]` block, read at row `p`. -/
theorem laneSum_apply (src : FVec Ideal S5000x64 .f32) (h : S5000x64.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- The body's arithmetic at row `p` of a block: the logistic function of the row's product with the weight row plus the bias. -/
theorem pay_apply (x0 : Vec Ideal S5000x64 .f32) (x1 : Vec Ideal S1x64 .f32) (x2 : Vec Ideal S1x1 .f32) (p : Fin 5000) :
    k3_pay1 x0 x1 x2 (ix2 p (0 : Fin 1))
      = Ideal.logistic ((∑ k : Fin 64, x0 (ix2 p k) * x1 (ix2 (0 : Fin 1) k)) + x2 (ix2 (0 : Fin 1) (0 : Fin 1))) := by
  unfold k3_pay1
  refine congrArg Ideal.logistic (congrArg₂ (· + ·) ?_ ?_)
  · refine (shapeCast_a_a1_apply _ _ p 0).trans ?_
    refine (laneSum_apply _ _ _ _ p).trans ?_
    refine Finset.sum_congr rfl fun k _ => ?_
    show shapeCast S5000x64 x0 _ (ix2 p k) * broadcastTo S5000x64 x1 _ (ix2 p k) = _
    rw [shapeCast_self]
    exact congrArg _ (broadcastTo_1b_ab_apply x1 _ p k)
  · refine (broadcastTo_1b_ab_apply _ _ p 0).trans ?_
    rw [shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the feature block and the output block move with the point along the
    rows; the weight row and the bias are always block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point `t` is rows `5000 t … 5000 t + 4999` of the feature array. -/
theorem iblk0_apply (c : Dev nD) (t : Fin cfg3.N) (p : Fin 5000) (k : Fin 64) (r : Fin 100000)
    (hr : r.val = t.val * 5000 + p.val) :
    (iblk3 V c 0 t : Vec Ideal S5000x64 .f32) (ix2 p k) = (V c main_v54 : S100000x64.Idx → EReal) (ix2 r k) := by
  obtain ⟨e0, e1, -⟩ := idx_facts t
  unfold iblk3
  rw [View.read_apply]
  show V c main_v54 _ = V c main_v54 _
  refine congrArg (V c main_v54) (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- The weight row's block at any point is the whole row. -/
theorem iblk1_apply (c : Dev nD) (t : Fin cfg3.N) (u : Fin 1) (k : Fin 64) :
    (iblk3 V c 1 t : Vec Ideal S1x64 .f32) (ix2 u k) = (V c main_arg11 : S1x64.Idx → EReal) (ix2 u k) := by
  obtain ⟨-, -, e2, e3, -⟩ := idx_facts t
  unfold iblk3
  rw [View.read_apply]
  show V c main_arg11 _ = V c main_arg11 _
  refine congrArg (V c main_arg11) (funext fun a => Fin.ext ?_)
  match a with
  | ⟨0, _⟩ => show win3_1.index t (0 : Fin 2) * 1 + 1 * u.val = u.val; rw [e2]; omega
  | ⟨1, _⟩ => show win3_1.index t (1 : Fin 2) * 64 + 1 * k.val = k.val; rw [e3]; omega

/-- The bias's block at any point is the bias. -/
theorem iblk2_apply (c : Dev nD) (t : Fin cfg3.N) (u v : Fin 1) :
    (iblk3 V c 2 t : Vec Ideal S1x1 .f32) (ix2 u v) = (V c main_v55 : S1x1.Idx → EReal) (ix2 u v) := by
  obtain ⟨-, -, -, -, e4, e5, -⟩ := idx_facts t
  unfold iblk3
  rw [View.read_apply]
  show V c main_v55 _ = V c main_v55 _
  refine congrArg (V c main_v55) (funext fun a => Fin.ext ?_)
  match a with
  | ⟨0, _⟩ => show win3_2.index t (0 : Fin 2) * 1 + 1 * u.val = u.val; rw [e4]; omega
  | ⟨1, _⟩ => show win3_2.index t (1 : Fin 2) * 1 + 1 * v.val = v.val; rw [e5]; omega

/-- What point `t` writes back is block `t` of the read-out column of the arrays as the region finds them. -/
theorem flushed_eq (c : Dev nD) (t : Fin cfg3.N) :
    (dat3 V c).flushed 3 t = ((cfg3.win 3).blk t).view.read (Elt Ideal)
      (Cert.Sage.readout (V c main_v54 : S100000x64.Idx → EReal) (V c main_arg11 : S1x64.Idx → EReal) (V c main_v55 : S1x1.Idx → EReal)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz, View.ld_unit_zero (S := S1x1) hz]
  obtain ⟨-, -, -, -, -, -, e6, -⟩ := idx_facts t
  funext y
  obtain ⟨p, q, rfl⟩ : ∃ (p : Fin 5000) (q : Fin 1), y = ix2 p q := ⟨y 0, y 1, eq_ix2 y⟩
  obtain rfl : q = 0 := Subsingleton.elim _ _
  refine (pay_apply (iblk3 V c 0 t) (iblk3 V c 1 t) (iblk3 V c 2 t) p).trans ?_
  have hr : ((((cfg3.win 3).blk t).view.emb (ix2 p (0 : Fin 1)) : S100000x1.Idx) 0).val = t.val * 5000 + p.val := by
    show win3_3.index t (0 : Fin 2) * 5000 + 1 * p.val = _
    rw [e6]; omega
  show _ = Cert.Sage.readoutAt (V c main_v54 : S100000x64.Idx → EReal) (V c main_arg11 : S1x64.Idx → EReal) (V c main_v55 : S1x1.Idx → EReal)
    ((((cfg3.win 3).blk t).view.emb (ix2 p (0 : Fin 1)) : S100000x1.Idx) 0)
  unfold Cert.Sage.readoutAt
  refine congrArg Ideal.logistic (congrArg₂ (· + ·) (Finset.sum_congr rfl fun k _ => congrArg₂ (· * ·) ?_ ?_) ?_)
  · exact iblk0_apply V c t p k _ hr
  · exact iblk1_apply V c t 0 k
  · exact iblk2_apply V c t 0 0

/-- An index of the output column is in point `t`'s block iff each coordinate is in the block's range on its axis. -/
theorem mem_blk (t : Fin cfg3.N) (i : S100000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v56).slice (win3_3.rect t)).set ↔ _
  rw [View.set_slice_whole, Rect.mem_set_unit]
  exact Iff.rfl

/-- Row `r` of the output column is written back by point `r / 5000`. -/
theorem cover (i : S100000x1.Idx) : ∃ t : Fin cfg3.N, (cfg3.win 3).flush t = true ∧ i ∈ ((cfg3.win 3).blk t).view.set := by
  have hN : grid3.N = 20 := N_3
  have hi0 : (i 0).val < 100000 := (i 0).isLt
  have hi1 : (i 1).val < 1 := (i 1).isLt
  have ht : (i 0).val / 5000 < cfg3.N := by show _ < grid3.N; rw [hN]; omega
  obtain ⟨-, -, -, -, -, -, e6, e7⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 1 ≤ (i 1).val ∧ (i 1).val < win3_3.index ⟨(i 0).val / 5000, ht⟩ (1 : Fin 2) * 1 + 1
    rw [e7]; omega

/-- The output column after the region: the read-out of the feature array, the weight row and the bias as the region finds them. -/
theorem region3_arr (c : Dev nD) :
    (dat3 (F := Ideal) V c).arrAt 3 cfg3.N
      = Cert.Sage.readout (V c main_v54 : S100000x64.Idx → EReal) (V c main_arg11 : S1x64.Idx → EReal) (V c main_v55 : S1x1.Idx → EReal) :=
  (dat3 V c).arrAt_eq_of_cover 3 _ (fun t _ => flushed_eq V c t) cover

end Cert.KernelIdeal.Hand3

end
-- ==== Proof.KHost.lean ====
/-
  The kernel program's result buffer, computed.

  The program's run ends with every buffer at the last boundary's contents, a fold through five stretches of host
  operations and four kernel regions.  Each stretch's results are read off as the named host-side steps of the buffers it
  reads, and every buffer it does not write keeps what it held; each region leaves in its result array the dense layer (or
  the read-out) of the arrays it found, and leaves every buffer that is not one of its arrays as it was.  Walking the nine
  boundaries in order, the result buffer ends at the read-out of three stacked dense layers of the argument arrays.
-/
import proofs.«140123_j20615843021436_2_alg».proof.Proof.KRun
import proofs.«140123_j20615843021436_2_alg».proof.Proof.KDefs
import proofs.«140123_j20615843021436_2_alg».proof.Proof.Region0
import proofs.«140123_j20615843021436_2_alg».proof.Proof.Region1
import proofs.«140123_j20615843021436_2_alg».proof.Proof.Region2
import proofs.«140123_j20615843021436_2_alg».proof.Proof.Region3
import Idealize.ShloMosaic.Lib.StableHlo.Run

set_option maxRecDepth 16384

noncomputable section

namespace Cert.KernelIdeal.HostRun

open Cert.KernelIdeal Cert.KernelIdeal.Gen Cert.KernelIdeal.HostVal
open Idealize.ShloMosaic Idealize.ShloMosaic.TcCoe Idealize.SL.Sem Idealize.ShloMosaic.StableHlo

/-! ## Each stretch of host operations, from any contents `W` -/

section Stretches
variable (W : Valuation τ sig (Elt Ideal))

theorem val0_v1 : after (hostOps0 (F := Ideal)) W (Proc.devRef .tc main_v1) = src (W (Proc.devRef .tc main_arg1)) := by after_results_simp <;> rfl
theorem val0_v3 : after (hostOps0 (F := Ideal)) W (Proc.devRef .tc main_v3) = dst (W (Proc.devRef .tc main_arg1)) := by after_results_simp <;> rfl
theorem val0_v12 : after (hostOps0 (F := Ideal)) W (Proc.devRef .tc main_v12) = invc (dst (W (Proc.devRef .tc main_arg1))) := by after_results_simp <;> rfl
theorem val0_v24 : after (hostOps0 (F := Ideal)) W (Proc.devRef .tc main_v24) = aggE (W (Proc.devRef .tc main_arg0)) (W (Proc.devRef .tc main_arg1)) := by after_results_simp <;> rfl
theorem val0_v25 : after (hostOps0 (F := Ideal)) W (Proc.devRef .tc main_v25) = shapeCast S1x128 (W (Proc.devRef .tc main_arg3)) shapeCasts_S128_S1x128 := by after_results_simp <;> rfl
theorem keep0_arg0 : after (hostOps0 (F := Ideal)) W (Proc.devRef .tc main_arg0) = W (Proc.devRef .tc main_arg0) := by after_results_simp <;> rfl
theorem keep0_arg2 : after (hostOps0 (F := Ideal)) W (Proc.devRef .tc main_arg2) = W (Proc.devRef .tc main_arg2) := by after_results_simp <;> rfl
theorem keep0_arg4 : after (hostOps0 (F := Ideal)) W (Proc.devRef .tc main_arg4) = W (Proc.devRef .tc main_arg4) := by after_results_simp <;> rfl
theorem keep0_arg5 : after (hostOps0 (F := Ideal)) W (Proc.devRef .tc main_arg5) = W (Proc.devRef .tc main_arg5) := by after_results_simp <;> rfl
theorem keep0_arg6 : after (hostOps0 (F := Ideal)) W (Proc.devRef .tc main_arg6) = W (Proc.devRef .tc main_arg6) := by after_results_simp <;> rfl
theorem keep0_arg7 : after (hostOps0 (F := Ideal)) W (Proc.devRef .tc main_arg7) = W (Proc.devRef .tc main_arg7) := by after_results_simp <;> rfl
theorem keep0_arg8 : after (hostOps0 (F := Ideal)) W (Proc.devRef .tc main_arg8) = W (Proc.devRef .tc main_arg8) := by after_results_simp <;> rfl
theorem keep0_arg9 : after (hostOps0 (F := Ideal)) W (Proc.devRef .tc main_arg9) = W (Proc.devRef .tc main_arg9) := by after_results_simp <;> rfl
theorem keep0_arg10 : after (hostOps0 (F := Ideal)) W (Proc.devRef .tc main_arg10) = W (Proc.devRef .tc main_arg10) := by after_results_simp <;> rfl
theorem keep0_arg11 : after (hostOps0 (F := Ideal)) W (Proc.devRef .tc main_arg11) = W (Proc.devRef .tc main_arg11) := by after_results_simp <;> rfl
theorem keep0_arg12 : after (hostOps0 (F := Ideal)) W (Proc.devRef .tc main_arg12) = W (Proc.devRef .tc main_arg12) := by after_results_simp <;> rfl
theorem val1_v38 : after (hostOps1 (F := Ideal)) W (Proc.devRef .tc main_v38) = agg (W (Proc.devRef .tc main_v26)) (W (Proc.devRef .tc main_v1)) (W (Proc.devRef .tc main_v3)) (W (Proc.devRef .tc main_v12)) := by after_results_simp <;> rfl
theorem val1_v39 : after (hostOps1 (F := Ideal)) W (Proc.devRef .tc main_v39) = shapeCast S1x128 (W (Proc.devRef .tc main_arg6)) shapeCasts_S128_S1x128 := by after_results_simp <;> rfl
theorem keep1_v26 : after (hostOps1 (F := Ideal)) W (Proc.devRef .tc main_v26) = W (Proc.devRef .tc main_v26) := by after_results_simp <;> rfl
theorem keep1_v1 : after (hostOps1 (F := Ideal)) W (Proc.devRef .tc main_v1) = W (Proc.devRef .tc main_v1) := by after_results_simp <;> rfl
theorem keep1_v3 : after (hostOps1 (F := Ideal)) W (Proc.devRef .tc main_v3) = W (Proc.devRef .tc main_v3) := by after_results_simp <;> rfl
theorem keep1_v12 : after (hostOps1 (F := Ideal)) W (Proc.devRef .tc main_v12) = W (Proc.devRef .tc main_v12) := by after_results_simp <;> rfl
theorem keep1_arg5 : after (hostOps1 (F := Ideal)) W (Proc.devRef .tc main_arg5) = W (Proc.devRef .tc main_arg5) := by after_results_simp <;> rfl
theorem keep1_arg7 : after (hostOps1 (F := Ideal)) W (Proc.devRef .tc main_arg7) = W (Proc.devRef .tc main_arg7) := by after_results_simp <;> rfl
theorem keep1_arg8 : after (hostOps1 (F := Ideal)) W (Proc.devRef .tc main_arg8) = W (Proc.devRef .tc main_arg8) := by after_results_simp <;> rfl
theorem keep1_arg9 : after (hostOps1 (F := Ideal)) W (Proc.devRef .tc main_arg9) = W (Proc.devRef .tc main_arg9) := by after_results_simp <;> rfl
theorem keep1_arg10 : after (hostOps1 (F := Ideal)) W (Proc.devRef .tc main_arg10) = W (Proc.devRef .tc main_arg10) := by after_results_simp <;> rfl
theorem keep1_arg11 : after (hostOps1 (F := Ideal)) W (Proc.devRef .tc main_arg11) = W (Proc.devRef .tc main_arg11) := by after_results_simp <;> rfl
theorem keep1_arg12 : after (hostOps1 (F := Ideal)) W (Proc.devRef .tc main_arg12) = W (Proc.devRef .tc main_arg12) := by after_results_simp <;> rfl
theorem val2_v52 : after (hostOps2 (F := Ideal)) W (Proc.devRef .tc main_v52) = agg (W (Proc.devRef .tc main_v40)) (W (Proc.devRef .tc main_v1)) (W (Proc.devRef .tc main_v3)) (W (Proc.devRef .tc main_v12)) := by after_results_simp <;> rfl
theorem val2_v53 : after (hostOps2 (F := Ideal)) W (Proc.devRef .tc main_v53) = shapeCast S1x64 (W (Proc.devRef .tc main_arg9)) shapeCasts_S64_S1x64 := by after_results_simp <;> rfl
theorem keep2_v40 : after (hostOps2 (F := Ideal)) W (Proc.devRef .tc main_v40) = W (Proc.devRef .tc main_v40) := by after_results_simp <;> rfl
theorem keep2_arg8 : after (hostOps2 (F := Ideal)) W (Proc.devRef .tc main_arg8) = W (Proc.devRef .tc main_arg8) := by after_results_simp <;> rfl
theorem keep2_arg10 : after (hostOps2 (F := Ideal)) W (Proc.devRef .tc main_arg10) = W (Proc.devRef .tc main_arg10) := by after_results_simp <;> rfl
theorem keep2_arg11 : after (hostOps2 (F := Ideal)) W (Proc.devRef .tc main_arg11) = W (Proc.devRef .tc main_arg11) := by after_results_simp <;> rfl
theorem keep2_arg12 : after (hostOps2 (F := Ideal)) W (Proc.devRef .tc main_arg12) = W (Proc.devRef .tc main_arg12) := by after_results_simp <;> rfl
theorem val3_v55 : after (hostOps3 (F := Ideal)) W (Proc.devRef .tc main_v55) = shapeCast S1x1 (W (Proc.devRef .tc main_arg12)) shapeCasts_S1_S1x1 := by after_results_simp <;> rfl
theorem keep3_v54 : after (hostOps3 (F := Ideal)) W (Proc.devRef .tc main_v54) = W (Proc.devRef .tc main_v54) := by after_results_simp <;> rfl
theorem keep3_arg11 : after (hostOps3 (F := Ideal)) W (Proc.devRef .tc main_arg11) = W (Proc.devRef .tc main_arg11) := by after_results_simp <;> rfl
theorem val4_v57 : after (hostOps4 (F := Ideal)) W (Proc.devRef .tc main_v57) = shapeCast S100000 (W (Proc.devRef .tc main_v56)) shapeCasts_S100000x1_S100000 := by after_results_simp <;> rfl
end Stretches

/-! ## The nine boundaries of the run -/

variable (m : (ℓ : Loc nD τ sig) → Buf (Elt Ideal) ℓ) (ρ : Dev nD → PrngReg)

theorem B1_arg0 (c : Dev nD) : W1 m ρ c (Proc.devRef .tc main_arg0) = (m ((c : Thread nD τ).loc main_arg0)) :=
  (keep0_arg0 (W0 m ρ c)).trans rfl
theorem B1_arg2 (c : Dev nD) : W1 m ρ c (Proc.devRef .tc main_arg2) = (m ((c : Thread nD τ).loc main_arg2)) :=
  (keep0_arg2 (W0 m ρ c)).trans rfl
theorem B1_arg4 (c : Dev nD) : W1 m ρ c (Proc.devRef .tc main_arg4) = (m ((c : Thread nD τ).loc main_arg4)) :=
  (keep0_arg4 (W0 m ρ c)).trans rfl
theorem B1_arg5 (c : Dev nD) : W1 m ρ c (Proc.devRef .tc main_arg5) = (m ((c : Thread nD τ).loc main_arg5)) :=
  (keep0_arg5 (W0 m ρ c)).trans rfl
theorem B1_arg6 (c : Dev nD) : W1 m ρ c (Proc.devRef .tc main_arg6) = (m ((c : Thread nD τ).loc main_arg6)) :=
  (keep0_arg6 (W0 m ρ c)).trans rfl
theorem B1_arg7 (c : Dev nD) : W1 m ρ c (Proc.devRef .tc main_arg7) = (m ((c : Thread nD τ).loc main_arg7)) :=
  (keep0_arg7 (W0 m ρ c)).trans rfl
theorem B1_arg8 (c : Dev nD) : W1 m ρ c (Proc.devRef .tc main_arg8) = (m ((c : Thread nD τ).loc main_arg8)) :=
  (keep0_arg8 (W0 m ρ c)).trans rfl
theorem B1_arg9 (c : Dev nD) : W1 m ρ c (Proc.devRef .tc main_arg9) = (m ((c : Thread nD τ).loc main_arg9)) :=
  (keep0_arg9 (W0 m ρ c)).trans rfl
theorem B1_arg10 (c : Dev nD) : W1 m ρ c (Proc.devRef .tc main_arg10) = (m ((c : Thread nD τ).loc main_arg10)) :=
  (keep0_arg10 (W0 m ρ c)).trans rfl
theorem B1_arg11 (c : Dev nD) : W1 m ρ c (Proc.devRef .tc main_arg11) = (m ((c : Thread nD τ).loc main_arg11)) :=
  (keep0_arg11 (W0 m ρ c)).trans rfl
theorem B1_arg12 (c : Dev nD) : W1 m ρ c (Proc.devRef .tc main_arg12) = (m ((c : Thread nD τ).loc main_arg12)) :=
  (keep0_arg12 (W0 m ρ c)).trans rfl
theorem B1_v1 (c : Dev nD) : W1 m ρ c (Proc.devRef .tc main_v1) = (src (m ((c : Thread nD τ).loc main_arg1))) :=
  (val0_v1 (W0 m ρ c)).trans rfl
theorem B1_v3 (c : Dev nD) : W1 m ρ c (Proc.devRef .tc main_v3) = (dst (m ((c : Thread nD τ).loc main_arg1))) :=
  (val0_v3 (W0 m ρ c)).trans rfl
theorem B1_v12 (c : Dev nD) : W1 m ρ c (Proc.devRef .tc main_v12) = (invc (dst (m ((c : Thread nD τ).loc main_arg1)))) :=
  (val0_v12 (W0 m ρ c)).trans rfl
theorem B1_v24 (c : Dev nD) : W1 m ρ c (Proc.devRef .tc main_v24) = aggE (m ((c : Thread nD τ).loc main_arg0)) (m ((c : Thread nD τ).loc main_arg1)) :=
  (val0_v24 (W0 m ρ c)).trans rfl
theorem B1_v25 (c : Dev nD) : W1 m ρ c (Proc.devRef .tc main_v25) = shapeCast S1x128 (m ((c : Thread nD τ).loc main_arg3)) shapeCasts_S128_S1x128 :=
  (val0_v25 (W0 m ρ c)).trans rfl
theorem B2_v1 (c : Dev nD) : W2 m ρ c (Proc.devRef .tc main_v1) = (src (m ((c : Thread nD τ).loc main_arg1))) :=
  (W2_of_ne m ρ c main_v1 (by decide)).trans (B1_v1 m ρ c)
theorem B2_v3 (c : Dev nD) : W2 m ρ c (Proc.devRef .tc main_v3) = (dst (m ((c : Thread nD τ).loc main_arg1))) :=
  (W2_of_ne m ρ c main_v3 (by decide)).trans (B1_v3 m ρ c)
theorem B2_v12 (c : Dev nD) : W2 m ρ c (Proc.devRef .tc main_v12) = (invc (dst (m ((c : Thread nD τ).loc main_arg1)))) :=
  (W2_of_ne m ρ c main_v12 (by decide)).trans (B1_v12 m ρ c)
theorem B2_arg5 (c : Dev nD) : W2 m ρ c (Proc.devRef .tc main_arg5) = (m ((c : Thread nD τ).loc main_arg5)) :=
  (W2_of_ne m ρ c main_arg5 (by decide)).trans (B1_arg5 m ρ c)
theorem B2_arg6 (c : Dev nD) : W2 m ρ c (Proc.devRef .tc main_arg6) = (m ((c : Thread nD τ).loc main_arg6)) :=
  (W2_of_ne m ρ c main_arg6 (by decide)).trans (B1_arg6 m ρ c)
theorem B2_arg7 (c : Dev nD) : W2 m ρ c (Proc.devRef .tc main_arg7) = (m ((c : Thread nD τ).loc main_arg7)) :=
  (W2_of_ne m ρ c main_arg7 (by decide)).trans (B1_arg7 m ρ c)
theorem B2_arg8 (c : Dev nD) : W2 m ρ c (Proc.devRef .tc main_arg8) = (m ((c : Thread nD τ).loc main_arg8)) :=
  (W2_of_ne m ρ c main_arg8 (by decide)).trans (B1_arg8 m ρ c)
theorem B2_arg9 (c : Dev nD) : W2 m ρ c (Proc.devRef .tc main_arg9) = (m ((c : Thread nD τ).loc main_arg9)) :=
  (W2_of_ne m ρ c main_arg9 (by decide)).trans (B1_arg9 m ρ c)
theorem B2_arg10 (c : Dev nD) : W2 m ρ c (Proc.devRef .tc main_arg10) = (m ((c : Thread nD τ).loc main_arg10)) :=
  (W2_of_ne m ρ c main_arg10 (by decide)).trans (B1_arg10 m ρ c)
theorem B2_arg11 (c : Dev nD) : W2 m ρ c (Proc.devRef .tc main_arg11) = (m ((c : Thread nD τ).loc main_arg11)) :=
  (W2_of_ne m ρ c main_arg11 (by decide)).trans (B1_arg11 m ρ c)
theorem B2_arg12 (c : Dev nD) : W2 m ρ c (Proc.devRef .tc main_arg12) = (m ((c : Thread nD τ).loc main_arg12)) :=
  (W2_of_ne m ρ c main_arg12 (by decide)).trans (B1_arg12 m ρ c)
theorem B2_v26 (c : Dev nD) : W2 m ρ c (Proc.devRef .tc main_v26) = (H1 (m ((c : Thread nD τ).loc main_arg0)) (m ((c : Thread nD τ).loc main_arg1)) (m ((c : Thread nD τ).loc main_arg2)) (m ((c : Thread nD τ).loc main_arg3)) (m ((c : Thread nD τ).loc main_arg4))) := by
  refine ((W2_arr m ρ c 5).trans (Hand0.region_arr (V1 m ρ) c)).trans ?_
  show Cert.Sage.dense (W1 m ρ c (Proc.devRef .tc main_v24)) (W1 m ρ c (Proc.devRef .tc main_arg0)) (W1 m ρ c (Proc.devRef .tc main_arg2)) (W1 m ρ c (Proc.devRef .tc main_arg4)) (W1 m ρ c (Proc.devRef .tc main_v25)) = _
  rw [B1_v24, B1_arg0, B1_arg2, B1_arg4, B1_v25]
  rfl
theorem B3_v26 (c : Dev nD) : W3 m ρ c (Proc.devRef .tc main_v26) = (H1 (m ((c : Thread nD τ).loc main_arg0)) (m ((c : Thread nD τ).loc main_arg1)) (m ((c : Thread nD τ).loc main_arg2)) (m ((c : Thread nD τ).loc main_arg3)) (m ((c : Thread nD τ).loc main_arg4))) :=
  (keep1_v26 (W2 m ρ c)).trans (B2_v26 m ρ c)
theorem B3_v1 (c : Dev nD) : W3 m ρ c (Proc.devRef .tc main_v1) = (src (m ((c : Thread nD τ).loc main_arg1))) :=
  (keep1_v1 (W2 m ρ c)).trans (B2_v1 m ρ c)
theorem B3_v3 (c : Dev nD) : W3 m ρ c (Proc.devRef .tc main_v3) = (dst (m ((c : Thread nD τ).loc main_arg1))) :=
  (keep1_v3 (W2 m ρ c)).trans (B2_v3 m ρ c)
theorem B3_v12 (c : Dev nD) : W3 m ρ c (Proc.devRef .tc main_v12) = (invc (dst (m ((c : Thread nD τ).loc main_arg1)))) :=
  (keep1_v12 (W2 m ρ c)).trans (B2_v12 m ρ c)
theorem B3_arg5 (c : Dev nD) : W3 m ρ c (Proc.devRef .tc main_arg5) = (m ((c : Thread nD τ).loc main_arg5)) :=
  (keep1_arg5 (W2 m ρ c)).trans (B2_arg5 m ρ c)
theorem B3_arg7 (c : Dev nD) : W3 m ρ c (Proc.devRef .tc main_arg7) = (m ((c : Thread nD τ).loc main_arg7)) :=
  (keep1_arg7 (W2 m ρ c)).trans (B2_arg7 m ρ c)
theorem B3_arg8 (c : Dev nD) : W3 m ρ c (Proc.devRef .tc main_arg8) = (m ((c : Thread nD τ).loc main_arg8)) :=
  (keep1_arg8 (W2 m ρ c)).trans (B2_arg8 m ρ c)
theorem B3_arg9 (c : Dev nD) : W3 m ρ c (Proc.devRef .tc main_arg9) = (m ((c : Thread nD τ).loc main_arg9)) :=
  (keep1_arg9 (W2 m ρ c)).trans (B2_arg9 m ρ c)
theorem B3_arg10 (c : Dev nD) : W3 m ρ c (Proc.devRef .tc main_arg10) = (m ((c : Thread nD τ).loc main_arg10)) :=
  (keep1_arg10 (W2 m ρ c)).trans (B2_arg10 m ρ c)
theorem B3_arg11 (c : Dev nD) : W3 m ρ c (Proc.devRef .tc main_arg11) = (m ((c : Thread nD τ).loc main_arg11)) :=
  (keep1_arg11 (W2 m ρ c)).trans (B2_arg11 m ρ c)
theorem B3_arg12 (c : Dev nD) : W3 m ρ c (Proc.devRef .tc main_arg12) = (m ((c : Thread nD τ).loc main_arg12)) :=
  (keep1_arg12 (W2 m ρ c)).trans (B2_arg12 m ρ c)
theorem B3_v38 (c : Dev nD) : W3 m ρ c (Proc.devRef .tc main_v38) = aggE (H1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  refine (val1_v38 (W2 m ρ c)).trans ?_
  rw [B2_v26, B2_v1, B2_v3, B2_v12]
theorem B3_v39 (c : Dev nD) : W3 m ρ c (Proc.devRef .tc main_v39) = shapeCast S1x128 (m ((c : Thread nD τ).loc main_arg6)) shapeCasts_S128_S1x128 := by
  refine (val1_v39 (W2 m ρ c)).trans ?_
  rw [B2_arg6]
theorem B4_v1 (c : Dev nD) : W4 m ρ c (Proc.devRef .tc main_v1) = (src (m ((c : Thread nD τ).loc main_arg1))) :=
  (W4_of_ne m ρ c main_v1 (by decide)).trans (B3_v1 m ρ c)
theorem B4_v3 (c : Dev nD) : W4 m ρ c (Proc.devRef .tc main_v3) = (dst (m ((c : Thread nD τ).loc main_arg1))) :=
  (W4_of_ne m ρ c main_v3 (by decide)).trans (B3_v3 m ρ c)
theorem B4_v12 (c : Dev nD) : W4 m ρ c (Proc.devRef .tc main_v12) = (invc (dst (m ((c : Thread nD τ).loc main_arg1)))) :=
  (W4_of_ne m ρ c main_v12 (by decide)).trans (B3_v12 m ρ c)
theorem B4_arg8 (c : Dev nD) : W4 m ρ c (Proc.devRef .tc main_arg8) = (m ((c : Thread nD τ).loc main_arg8)) :=
  (W4_of_ne m ρ c main_arg8 (by decide)).trans (B3_arg8 m ρ c)
theorem B4_arg9 (c : Dev nD) : W4 m ρ c (Proc.devRef .tc main_arg9) = (m ((c : Thread nD τ).loc main_arg9)) :=
  (W4_of_ne m ρ c main_arg9 (by decide)).trans (B3_arg9 m ρ c)
theorem B4_arg10 (c : Dev nD) : W4 m ρ c (Proc.devRef .tc main_arg10) = (m ((c : Thread nD τ).loc main_arg10)) :=
  (W4_of_ne m ρ c main_arg10 (by decide)).trans (B3_arg10 m ρ c)
theorem B4_arg11 (c : Dev nD) : W4 m ρ c (Proc.devRef .tc main_arg11) = (m ((c : Thread nD τ).loc main_arg11)) :=
  (W4_of_ne m ρ c main_arg11 (by decide)).trans (B3_arg11 m ρ c)
theorem B4_arg12 (c : Dev nD) : W4 m ρ c (Proc.devRef .tc main_arg12) = (m ((c : Thread nD τ).loc main_arg12)) :=
  (W4_of_ne m ρ c main_arg12 (by decide)).trans (B3_arg12 m ρ c)
theorem B4_v40 (c : Dev nD) : W4 m ρ c (Proc.devRef .tc main_v40) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W4_arr m ρ c 5).trans (Hand1.region_arr (V3 m ρ) c)).trans ?_
  show Cert.Sage.dense (W3 m ρ c (Proc.devRef .tc main_v38)) (W3 m ρ c (Proc.devRef .tc main_v26)) (W3 m ρ c (Proc.devRef .tc main_arg5)) (W3 m ρ c (Proc.devRef .tc main_arg7)) (W3 m ρ c (Proc.devRef .tc main_v39)) = _
  rw [B3_v38, B3_v26, B3_arg5, B3_arg7, B3_v39]
  rfl
theorem B5_v40 (c : Dev nD) : W5 m ρ c (Proc.devRef .tc main_v40) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (keep2_v40 (W4 m ρ c)).trans (B4_v40 m ρ c)
theorem B5_arg8 (c : Dev nD) : W5 m ρ c (Proc.devRef .tc main_arg8) = (m ((c : Thread nD τ).loc main_arg8)) :=
  (keep2_arg8 (W4 m ρ c)).trans (B4_arg8 m ρ c)
theorem B5_arg10 (c : Dev nD) : W5 m ρ c (Proc.devRef .tc main_arg10) = (m ((c : Thread nD τ).loc main_arg10)) :=
  (keep2_arg10 (W4 m ρ c)).trans (B4_arg10 m ρ c)
theorem B5_arg11 (c : Dev nD) : W5 m ρ c (Proc.devRef .tc main_arg11) = (m ((c : Thread nD τ).loc main_arg11)) :=
  (keep2_arg11 (W4 m ρ c)).trans (B4_arg11 m ρ c)
theorem B5_arg12 (c : Dev nD) : W5 m ρ c (Proc.devRef .tc main_arg12) = (m ((c : Thread nD τ).loc main_arg12)) :=
  (keep2_arg12 (W4 m ρ c)).trans (B4_arg12 m ρ c)
theorem B5_v52 (c : Dev nD) : W5 m ρ c (Proc.devRef .tc main_v52) = aggE (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) := by
  refine (val2_v52 (W4 m ρ c)).trans ?_
  rw [B4_v40, B4_v1, B4_v3, B4_v12]
theorem B5_v53 (c : Dev nD) : W5 m ρ c (Proc.devRef .tc main_v53) = shapeCast S1x64 (m ((c : Thread nD τ).loc main_arg9)) shapeCasts_S64_S1x64 := by
  refine (val2_v53 (W4 m ρ c)).trans ?_
  rw [B4_arg9]
theorem B6_arg11 (c : Dev nD) : W6 m ρ c (Proc.devRef .tc main_arg11) = (m ((c : Thread nD τ).loc main_arg11)) :=
  (W6_of_ne m ρ c main_arg11 (by decide)).trans (B5_arg11 m ρ c)
theorem B6_arg12 (c : Dev nD) : W6 m ρ c (Proc.devRef .tc main_arg12) = (m ((c : Thread nD τ).loc main_arg12)) :=
  (W6_of_ne m ρ c main_arg12 (by decide)).trans (B5_arg12 m ρ c)
theorem B6_v54 (c : Dev nD) : W6 m ρ c (Proc.devRef .tc main_v54) = (H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine ((W6_arr m ρ c 5).trans (Hand2.region_arr (V5 m ρ) c)).trans ?_
  show Cert.Sage.dense (W5 m ρ c (Proc.devRef .tc main_v52)) (W5 m ρ c (Proc.devRef .tc main_v40)) (W5 m ρ c (Proc.devRef .tc main_arg8)) (W5 m ρ c (Proc.devRef .tc main_arg10)) (W5 m ρ c (Proc.devRef .tc main_v53)) = _
  rw [B5_v52, B5_v40, B5_arg8, B5_arg10, B5_v53]
  rfl
theorem B7_v54 (c : Dev nD) : W7 m ρ c (Proc.devRef .tc main_v54) = (H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (keep3_v54 (W6 m ρ c)).trans (B6_v54 m ρ c)
theorem B7_arg11 (c : Dev nD) : W7 m ρ c (Proc.devRef .tc main_arg11) = (m ((c : Thread nD τ).loc main_arg11)) :=
  (keep3_arg11 (W6 m ρ c)).trans (B6_arg11 m ρ c)
theorem B7_v55 (c : Dev nD) : W7 m ρ c (Proc.devRef .tc main_v55) = shapeCast S1x1 (m ((c : Thread nD τ).loc main_arg12)) shapeCasts_S1_S1x1 := by
  refine (val3_v55 (W6 m ρ c)).trans ?_
  rw [B6_arg12]
theorem B8_v56 (c : Dev nD) : W8 m ρ c (Proc.devRef .tc main_v56) = Cert.Sage.readout (H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (shapeCast S1x1 (m ((c : Thread nD τ).loc main_arg12)) shapeCasts_S1_S1x1) := by
  refine ((W8_arr m ρ c 3).trans (Hand3.region3_arr (V7 m ρ) c)).trans ?_
  show Cert.Sage.readout (W7 m ρ c (Proc.devRef .tc main_v54)) (W7 m ρ c (Proc.devRef .tc main_arg11)) (W7 m ρ c (Proc.devRef .tc main_v55)) = _
  rw [B7_v54, B7_arg11, B7_v55]
/-- The result buffer at the end of the run: the read-out of three stacked dense layers of the argument arrays. -/
theorem result_value (c : Dev nD) : W9 m ρ c (Proc.devRef .tc main_v57) = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (val4_v57 (W8 m ρ c)).trans ?_
  rw [B8_v56]
  rfl

end Cert.KernelIdeal.HostRun

end
-- ==== Proof.LibMeanLaw.lean ====
/-
  A neighbourhood mean written two ways, and the two orders of a bias.

  A mean over a neighbourhood is a sum `s` divided by a count `d` that is never let fall below one: `s / max d 1`.
  A program may instead form the reciprocal `1 / max d 1` once and multiply every sum by it.  On the extended reals
  the quotient by a NONZERO `y` is `x * y⁻¹`, and `max d 1` is at least one whatever `d` is (finite or not), so
  the two spellings agree for every extended real `s` and `d`: no finiteness is needed.

  The second law is about a dense stage `Σₖ aₖ wₖ` to which a second product `r` and a bias `b` are added: the two
  additions may come in either order, because addition of extended reals is commutative and associative.
  Nothing here mentions a program.
-/
import Idealize.ShloMosaic.PureOps.Ideal

noncomputable section

open scoped BigOperators

namespace Cert.MeanLaw

open Idealize.ShloMosaic

/-- A count raised to at least one is not zero. -/
theorem max_one_ne_zero (d : EReal) : max d 1 ≠ 0 :=
  ne_of_gt (lt_of_lt_of_le (by exact_mod_cast (zero_lt_one : (0 : ℝ) < 1)) (le_max_right d 1))

/-- Multiplying by the reciprocal of `max d 1` is dividing by `max d 1`, for every extended real `s`. -/
theorem mul_recip_eq_div (s d : EReal) : s * Ideal.div 1 (max d 1) = Ideal.div s (max d 1) := by
  simp only [Ideal.div, if_neg (max_one_ne_zero d), one_mul]

/-- A weighted sum of means plus a second term and a bias: the reciprocal spelling with the bias added last equals
    the quotient spelling with the bias added before the second term. -/
theorem mean_dense_comm {ι : Type} (t : Finset ι) (S w : ι → EReal) (d r b : EReal) :
    (∑ k ∈ t, (S k * Ideal.div 1 (max d 1)) * w k + r) + b
      = ((∑ k ∈ t, Ideal.div (S k) (max d 1) * w k) + b) + r := by
  rw [add_right_comm]
  refine congrArg (· + r) (congrArg (· + b) (Finset.sum_congr rfl fun k _ => ?_))
  rw [mul_recip_eq_div]

end Cert.MeanLaw

end
-- ==== Proof.AggLaw.lean ====
/-
  The aggregated operand read at an entry.

  The kernel program forms the aggregated operand as the neighbourhood sums times the reciprocal `1 / max deg 1`, the
  reciprocal kept as a column and laid along the lanes.  Read at entry (r, k) that is `S(r,k) · (1 / max deg(r) 1)`, and
  since the clamped degree is never zero this equals the quotient `S(r,k) / max deg(r) 1`, for every extended real
  `S(r,k)` and `deg(r)`: no finiteness is used.
-/
import proofs.«140123_j20615843021436_2_alg».proof.Proof.KDefs
import proofs.«140123_j20615843021436_2_alg».proof.Proof.LibMeanLaw
import Idealize.ShloMosaic.Lib.ValueIdx
import Idealize.ShloMosaic.Lib.Pipeline.Value

noncomputable section

namespace Cert.KernelIdeal.HostVal

open Cert.KernelIdeal Cert.KernelIdeal.Gen Idealize.ShloMosaic Idealize.ShloMosaic.ValueIdx

/-- A scalar constant laid along a flat vector holds the constant everywhere. -/
theorem splat_apply (w : BitVec 32) (i : S100000.Idx) :
    broadcastInDim S100000 ![] bcast_S_S100000 (constant (F := Ideal) S_ .f32 w) i = Ideal.ofBits .f32 w := rfl

/-- The larger of a vector and the splat of one, at a row. -/
theorem max_splat_one_apply (x : FVec Ideal S100000 .f32) (i : S100000.Idx) :
    maximumf (F := Ideal) (s := S100000) (φ := .f32) x
      (broadcastInDim S100000 ![] bcast_S_S100000 (constant (F := Ideal) S_ .f32 0x3F800000#32)) i = max (x i) 1 := by
  rw [maximumf_apply, splat_apply, Cert.Sage.ofBits_one]

/-- The splat of one divided by a vector, at a row. -/
theorem recip_apply (x : FVec Ideal S100000 .f32) (i : S100000.Idx) :
    Host.divf (F := Ideal) (broadcastInDim S100000 ![] bcast_S_S100000 (constant (F := Ideal) S_ .f32 0x3F800000#32)) x i
      = Ideal.div 1 (x i) := by
  show Ideal.div (broadcastInDim S100000 ![] bcast_S_S100000 (constant (F := Ideal) S_ .f32 0x3F800000#32) i) (x i) = _
  rw [splat_apply, Cert.Sage.ofBits_one]

/-- The clamped degree at a row is the larger of the degree and one. -/
theorem degc_apply (d : EdgeRow) (i : S100000.Idx) : degc d i = max (degraw d i) 1 := by
  unfold degc
  generalize degraw d = x
  exact max_splat_one_apply x i

/-- The reciprocal column at row `r`. -/
theorem invc_apply (d : EdgeRow) (r : Fin 100000) (u : Fin 1) :
    invc d (ix2 r u) = Ideal.div 1 (degc d (ix1 r)) := by
  unfold invc
  generalize degc d = x
  rw [broadcastInDim_apply ![0] bcast_S100000_S100000x1_0 _ (ix2 r u) (ix1 r) (fun a => match a with
    | ⟨0, _⟩ => by
        show r.val = if (100000 : Nat) = 1 then 0 else r.val
        rw [if_neg (by decide)])]
  exact recip_apply x (ix1 r)

/-- A column laid along the lanes holds the column's entry of row `r` in every lane of row `r`. -/
theorem lanes_apply (y : Col) (r : Fin 100000) (k : Fin 128) :
    broadcastInDim S100000x128 ![0, 1] bcast_S100000x1_S100000x128_0_1 y (ix2 r k) = y (ix2 r (0 : Fin 1)) :=
  broadcastInDim_apply ![0, 1] bcast_S100000x1_S100000x128_0_1 y (ix2 r k) (ix2 r (0 : Fin 1)) (fun a => match a with
    | ⟨0, _⟩ => by
        show r.val = if (100000 : Nat) = 1 then 0 else r.val
        rw [if_neg (by decide)]
    | ⟨1, _⟩ => by
        show 0 = if (1 : Nat) = 1 then 0 else k.val
        rw [if_pos rfl])

/-- The aggregated operand at entry (r, k) is the neighbourhood sum divided by the clamped degree of row r. -/
theorem agg_apply (h : Feat) (s d dd : EdgeRow) (r : Fin 100000) (k : Fin 128) :
    agg h s d (invc dd) (ix2 r k) = Ideal.div (nbsum h s d (ix2 r k)) (degc dd (ix1 r)) := by
  unfold agg
  generalize nbsum h s d = S
  rw [mulf_apply, lanes_apply, invc_apply, degc_apply]
  exact Cert.MeanLaw.mul_recip_eq_div _ _

end Cert.KernelIdeal.HostVal

end
-- ==== Proof.LayerRef.lean ====
/-
  Each of the reference program's three dense layers — the neighbourhood sums divided by the clamped degree and
  multiplied into the transposed left weights, plus the bias broadcast to every row, plus the previous features
  multiplied into the transposed right weights, the whole clamped below at zero — is the dense layer of the
  specification, entry by entry. The neighbourhood sums, the clamped degree and the previous layer's output stay opaque.
-/
import proofs.«140123_j20615843021436_2_alg».proof.Proof.Gen.ReferenceIdeal.Read
import proofs.«140123_j20615843021436_2_alg».proof.Proof.Spec

noncomputable section

open Idealize.ShloMosaic Idealize.ShloMosaic.ValueIdx
open scoped BigOperators

namespace Cert.ReferenceIdeal.HandL

open Cert.ReferenceIdeal Cert.ReferenceIdeal.Gen Cert.ReferenceIdeal.Read

/-- The reference's first layer is the dense layer of the mean-aggregated input `a`, the input `x0`, the weights `x2`, `x4` and the bias row `b`. -/
theorem layer1_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (a : (⟨2, ![100000, 128]⟩ : Shape).Idx → EReal) (b : (⟨2, ![1, 128]⟩ : Shape).Idx → EReal)
    (ha : ∀ (r : Fin 100000) (k : Fin 128), a (ix2 r k)
      = Ideal.div (val_main_v13 (F := Ideal) x0 x1 (ix2 r k)) (val_main_v19 (F := Ideal) x1 (ix1 r)))
    (hb : ∀ q : Fin 128, b (ix2 (0 : Fin 1) q) = x3 (ix1 q)) :
    val_main_v31 (F := Ideal) x0 x1 x2 x3 x4 = Cert.Sage.dense a x0 x2 x4 b := by
  funext j
  obtain ⟨p, q, rfl⟩ : ∃ (p : Fin 100000) (q : Fin 128), j = ix2 p q := ⟨j 0, j 1, eq_ix2 j⟩
  rw [Cert.Sage.dense_apply]
  unfold Cert.Sage.denseAt
  rw [val_main_v31_apply, val_main_call0_v0_apply, val_main_call0_cst_apply, val_main_v30_apply, val_main_v27_apply,
    val_main_v24_apply, val_main_v29_apply, val_main_v26_apply, val_main_v25_apply]
  refine congrArg₂ max (congrArg₂ (· + ·) (congrArg₂ (· + ·) (Finset.sum_congr rfl fun k _ => congrArg₂ (· * ·) ?_ ?_) ?_)
    (Finset.sum_congr rfl fun k _ => congrArg₂ (· * ·) ?_ ?_)) rfl
  · -- the aggregated operand at (p, k): the neighbourhood sum over the clamped degree of row p
    have el : lidx_main_v24 (ix2 p q) k = ix2 p k :=
      funext fun i => Fin.ext (by match i with | ⟨0, _⟩ => rfl | ⟨1, _⟩ => rfl)
    have ed : idx_main_v20 (idx_main_v21 (ix2 p k)) = ix1 p :=
      funext fun i => Fin.ext (by match i with | ⟨0, _⟩ => rfl)
    rw [el, val_main_v22_apply, val_main_v21_apply, val_main_v20_apply, ed, ha p k]
    rfl
  · -- the transposed left weights at (k, q) are the left weights at (q, k)
    have er : idx_main_v23 (ridx_main_v24 (ix2 p q) k) = ix2 q k :=
      funext fun i => Fin.ext (by match i with | ⟨0, _⟩ => rfl | ⟨1, _⟩ => rfl)
    rw [val_main_v23_apply, er]
  · -- the bias broadcast to row p, at lane q
    have eb : idx_main_v25 (idx_main_v26 (ix2 p q)) = ix1 q :=
      funext fun i => Fin.ext (by match i with | ⟨0, _⟩ => rfl)
    rw [eb, hb q]
  · -- the previous features at (p, k)
    have el : lidx_main_v29 (ix2 p q) k = ix2 p k :=
      funext fun i => Fin.ext (by match i with | ⟨0, _⟩ => rfl | ⟨1, _⟩ => rfl)
    rw [el]
  · -- the transposed right weights at (k, q) are the right weights at (q, k)
    have er : idx_main_v28 (ridx_main_v29 (ix2 p q) k) = ix2 q k :=
      funext fun i => Fin.ext (by match i with | ⟨0, _⟩ => rfl | ⟨1, _⟩ => rfl)
    rw [val_main_v28_apply, er]

/-- The reference's second layer is the dense layer of the mean-aggregated first layer `a`, the first layer's output, the weights `x5`, `x7` and the bias row `b`. -/
theorem layer2_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal))
    (a : (⟨2, ![100000, 128]⟩ : Shape).Idx → EReal) (b : (⟨2, ![1, 128]⟩ : Shape).Idx → EReal)
    (ha : ∀ (r : Fin 100000) (k : Fin 128), a (ix2 r k)
      = Ideal.div (val_main_v41 (F := Ideal) x0 x1 x2 x3 x4 (ix2 r k)) (val_main_v47 (F := Ideal) x1 (ix1 r)))
    (hb : ∀ q : Fin 128, b (ix2 (0 : Fin 1) q) = x6 (ix1 q)) :
    val_main_v59 (F := Ideal) x0 x1 x2 x3 x4 x5 x6 x7 = Cert.Sage.dense a (val_main_v31 (F := Ideal) x0 x1 x2 x3 x4) x5 x7 b := by
  funext j
  obtain ⟨p, q, rfl⟩ : ∃ (p : Fin 100000) (q : Fin 128), j = ix2 p q := ⟨j 0, j 1, eq_ix2 j⟩
  rw [Cert.Sage.dense_apply]
  unfold Cert.Sage.denseAt
  rw [val_main_v59_apply, val_main_call1_v0_apply, val_main_call1_cst_apply, val_main_v58_apply, val_main_v55_apply,
    val_main_v52_apply, val_main_v57_apply, val_main_v54_apply, val_main_v53_apply]
  refine congrArg₂ max (congrArg₂ (· + ·) (congrArg₂ (· + ·) (Finset.sum_congr rfl fun k _ => congrArg₂ (· * ·) ?_ ?_) ?_)
    (Finset.sum_congr rfl fun k _ => congrArg₂ (· * ·) ?_ ?_)) rfl
  · -- the aggregated operand at (p, k): the neighbourhood sum over the clamped degree of row p
    have el : lidx_main_v52 (ix2 p q) k = ix2 p k :=
      funext fun i => Fin.ext (by match i with | ⟨0, _⟩ => rfl | ⟨1, _⟩ => rfl)
    have ed : idx_main_v48 (idx_main_v49 (ix2 p k)) = ix1 p :=
      funext fun i => Fin.ext (by match i with | ⟨0, _⟩ => rfl)
    rw [el, val_main_v50_apply, val_main_v49_apply, val_main_v48_apply, ed, ha p k]
    rfl
  · -- the transposed left weights at (k, q) are the left weights at (q, k)
    have er : idx_main_v51 (ridx_main_v52 (ix2 p q) k) = ix2 q k :=
      funext fun i => Fin.ext (by match i with | ⟨0, _⟩ => rfl | ⟨1, _⟩ => rfl)
    rw [val_main_v51_apply, er]
  · -- the bias broadcast to row p, at lane q
    have eb : idx_main_v53 (idx_main_v54 (ix2 p q)) = ix1 q :=
      funext fun i => Fin.ext (by match i with | ⟨0, _⟩ => rfl)
    rw [eb, hb q]
  · -- the previous features at (p, k)
    have el : lidx_main_v57 (ix2 p q) k = ix2 p k :=
      funext fun i => Fin.ext (by match i with | ⟨0, _⟩ => rfl | ⟨1, _⟩ => rfl)
    rw [el]
  · -- the transposed right weights at (k, q) are the right weights at (q, k)
    have er : idx_main_v56 (ridx_main_v57 (ix2 p q) k) = ix2 q k :=
      funext fun i => Fin.ext (by match i with | ⟨0, _⟩ => rfl | ⟨1, _⟩ => rfl)
    rw [val_main_v56_apply, er]

/-- The reference's third layer is the dense layer of the mean-aggregated second layer `a`, the second layer's output, the weights `x8`, `x10` and the bias row `b`. -/
theorem layer3_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal))
    (a : (⟨2, ![100000, 128]⟩ : Shape).Idx → EReal) (b : (⟨2, ![1, 64]⟩ : Shape).Idx → EReal)
    (ha : ∀ (r : Fin 100000) (k : Fin 128), a (ix2 r k)
      = Ideal.div (val_main_v69 (F := Ideal) x0 x1 x2 x3 x4 x5 x6 x7 (ix2 r k)) (val_main_v75 (F := Ideal) x1 (ix1 r)))
    (hb : ∀ q : Fin 64, b (ix2 (0 : Fin 1) q) = x9 (ix1 q)) :
    val_main_v87 (F := Ideal) x0 x1 x2 x3 x4 x5 x6 x7 x8 x9 x10 = Cert.Sage.dense a (val_main_v59 (F := Ideal) x0 x1 x2 x3 x4 x5 x6 x7) x8 x10 b := by
  funext j
  obtain ⟨p, q, rfl⟩ : ∃ (p : Fin 100000) (q : Fin 64), j = ix2 p q := ⟨j 0, j 1, eq_ix2 j⟩
  rw [Cert.Sage.dense_apply]
  unfold Cert.Sage.denseAt
  rw [val_main_v87_apply, val_main_call2_v0_apply, val_main_call2_cst_apply, val_main_v86_apply, val_main_v83_apply,
    val_main_v80_apply, val_main_v85_apply, val_main_v82_apply, val_main_v81_apply]
  refine congrArg₂ max (congrArg₂ (· + ·) (congrArg₂ (· + ·) (Finset.sum_congr rfl fun k _ => congrArg₂ (· * ·) ?_ ?_) ?_)
    (Finset.sum_congr rfl fun k _ => congrArg₂ (· * ·) ?_ ?_)) rfl
  · -- the aggregated operand at (p, k): the neighbourhood sum over the clamped degree of row p
    have el : lidx_main_v80 (ix2 p q) k = ix2 p k :=
      funext fun i => Fin.ext (by match i with | ⟨0, _⟩ => rfl | ⟨1, _⟩ => rfl)
    have ed : idx_main_v76 (idx_main_v77 (ix2 p k)) = ix1 p :=
      funext fun i => Fin.ext (by match i with | ⟨0, _⟩ => rfl)
    rw [el, val_main_v78_apply, val_main_v77_apply, val_main_v76_apply, ed, ha p k]
    rfl
  · -- the transposed left weights at (k, q) are the left weights at (q, k)
    have er : idx_main_v79 (ridx_main_v80 (ix2 p q) k) = ix2 q k :=
      funext fun i => Fin.ext (by match i with | ⟨0, _⟩ => rfl | ⟨1, _⟩ => rfl)
    rw [val_main_v79_apply, er]
  · -- the bias broadcast to row p, at lane q
    have eb : idx_main_v81 (idx_main_v82 (ix2 p q)) = ix1 q :=
      funext fun i => Fin.ext (by match i with | ⟨0, _⟩ => rfl)
    rw [eb, hb q]
  · -- the previous features at (p, k)
    have el : lidx_main_v85 (ix2 p q) k = ix2 p k :=
      funext fun i => Fin.ext (by match i with | ⟨0, _⟩ => rfl | ⟨1, _⟩ => rfl)
    rw [el]
  · -- the transposed right weights at (k, q) are the right weights at (q, k)
    have er : idx_main_v84 (ridx_main_v85 (ix2 p q) k) = ix2 q k :=
      funext fun i => Fin.ext (by match i with | ⟨0, _⟩ => rfl | ⟨1, _⟩ => rfl)
    rw [val_main_v84_apply, er]

end Cert.ReferenceIdeal.HandL

end
-- ==== Proof.ReadoutRef.lean ====
/-
  The reference program's last stages — the third layer's output times the transposed weight row, plus the bias broadcast
  to every row, then `1 / (1 + exp (−·))` — are the logistic read-out of the third layer's output, entry by entry.
-/
import proofs.«140123_j20615843021436_2_alg».proof.Proof.Gen.ReferenceIdeal.Read
import proofs.«140123_j20615843021436_2_alg».proof.Proof.Spec

noncomputable section

open Idealize.ShloMosaic Idealize.ShloMosaic.ValueIdx
open scoped BigOperators

namespace Cert.ReferenceIdeal.Hand3

open Cert.ReferenceIdeal Cert.ReferenceIdeal.Gen Cert.ReferenceIdeal.Read

/-- The reference's read-out column is the logistic read-out of its third layer's output `val_main_v87`, the weight row
    and any `[1, 1]` array `b` whose one entry is the bias. -/
theorem readout_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S1x64, .f32⟩ : BufTy).Contents (Elt Ideal)) (x12 : (⟨S1, .f32⟩ : BufTy).Contents (Elt Ideal))
    (b : (⟨2, ![1, 1]⟩ : Shape).Idx → EReal) (hb : b (ix2 (0 : Fin 1) (0 : Fin 1)) = x12 (ix1 (0 : Fin 1))) :
    val_main_v98 (F := Ideal) x0 x1 x2 x3 x4 x5 x6 x7 x8 x9 x10 x11 x12
      = Cert.Sage.readout (val_main_v87 (F := Ideal) x0 x1 x2 x3 x4 x5 x6 x7 x8 x9 x10) x11 b := by
  funext j
  obtain ⟨p, q, rfl⟩ : ∃ (p : Fin 100000) (q : Fin 1), j = ix2 p q := ⟨j 0, j 1, eq_ix2 j⟩
  obtain rfl : q = 0 := Subsingleton.elim _ _
  rw [Cert.Sage.readout_apply]
  unfold Cert.Sage.readoutAt Ideal.logistic
  rw [val_main_v98_apply, val_main_v97_apply, val_main_cst_17_apply, val_main_v96_apply, val_main_v95_apply,
    val_main_cst_16_apply, val_main_v94_apply, val_main_v93_apply, val_main_v92_apply, val_main_v89_apply,
    val_main_v91_apply, val_main_v90_apply]
  generalize val_main_v87 (F := Ideal) x0 x1 x2 x3 x4 x5 x6 x7 x8 x9 x10 = y87
  have el : ∀ k : Fin 64, lidx_main_v89 (ix2 p (0 : Fin 1)) k = ix2 p k := fun k =>
    funext fun a => Fin.ext (by match a with | ⟨0, _⟩ => rfl | ⟨1, _⟩ => rfl)
  have er : ∀ k : Fin 64, idx_main_v88 (ridx_main_v89 (ix2 p (0 : Fin 1)) k) = ix2 (0 : Fin 1) k := fun k =>
    funext fun a => Fin.ext (by match a with | ⟨0, _⟩ => rfl | ⟨1, _⟩ => rfl)
  have eb : idx_main_v90 (idx_main_v91 (ix2 p (0 : Fin 1))) = ix1 (0 : Fin 1) :=
    funext fun a => Fin.ext (by match a with | ⟨0, _⟩ => rfl)
  simp only [val_main_v88_apply, el, er, eb, Ideal.hostDivf_def, Ideal.addf_def, Ideal.hostUnary_exp_def,
    Ideal.hostNegf_def, Ideal.negf_def, Ideal.ofBits_def, Cert.Sage.ofBits_one, hb]

end Cert.ReferenceIdeal.Hand3

end
-- ==== Proof.Bridge.lean ====
/-
  The kernel program's value is the reference's.

  Both programs apply the same gather and scatter-add to the same operands, so the neighbourhood sums and the clamped
  degrees are the same arrays on both sides.  The kernel multiplies the sums by the reciprocal of the clamped degree where
  the reference divides by it; the two agree entry by entry on the extended reals because the clamped degree is never
  zero.  Each dense layer of the reference is then the dense layer the kernel's region computes, layer by layer, and the
  reference's `1 / (1 + exp (−(h·w + b)))` is the kernel's logistic read-out.
-/
import proofs.«140123_j20615843021436_2_alg».proof.Proof.Gen.ReferenceIdeal.Read
import proofs.«140123_j20615843021436_2_alg».proof.Proof.KDefs
import proofs.«140123_j20615843021436_2_alg».proof.Proof.AggLaw
import proofs.«140123_j20615843021436_2_alg».proof.Proof.LayerRef
import proofs.«140123_j20615843021436_2_alg».proof.Proof.ReadoutRef
import proofs.«140123_j20615843021436_2_alg».proof.Proof.LibRowBias

noncomputable section

namespace Cert.Bridge

open Idealize.ShloMosaic Idealize.ShloMosaic.ValueIdx
open Cert.ReferenceIdeal.Read Cert.KernelIdeal.HostVal

variable (x0 : Feat) (x1 : Edges) (x2 : W128) (x3 : B128) (x4 x5 : W128) (x6 : B128) (x7 : W128) (x8 : W64) (x9 : B64) (x10 : W64)
  (x11 : (⟨Cert.KernelIdeal.S1x64, .f32⟩ : BufTy).Contents (Elt Ideal)) (x12 : (⟨Cert.KernelIdeal.S1, .f32⟩ : BufTy).Contents (Elt Ideal))

/-! ## The shared stages: the same operations of the same operands on both sides -/

theorem deg1 : val_main_v19 (F := Ideal) x1 = degc (dst x1) := rfl
theorem deg2 : val_main_v47 (F := Ideal) x1 = degc (dst x1) := rfl
theorem deg3 : val_main_v75 (F := Ideal) x1 = degc (dst x1) := rfl
theorem nb1 : val_main_v13 (F := Ideal) x0 x1 = nbsum x0 (src x1) (dst x1) := rfl
theorem nb2 : val_main_v41 (F := Ideal) x0 x1 x2 x3 x4 = nbsum (val_main_v31 (F := Ideal) x0 x1 x2 x3 x4) (src x1) (dst x1) := rfl
theorem nb3 : val_main_v69 (F := Ideal) x0 x1 x2 x3 x4 x5 x6 x7 = nbsum (val_main_v59 (F := Ideal) x0 x1 x2 x3 x4 x5 x6 x7) (src x1) (dst x1) := rfl

/-! ## The layers -/

/-- The first layer: the kernel's region output is the reference's. -/
theorem H1_eq : H1 x0 x1 x2 x3 x4 = val_main_v31 (F := Ideal) x0 x1 x2 x3 x4 := by
  unfold H1
  exact (Cert.ReferenceIdeal.HandL.layer1_ref x0 x1 x2 x3 x4 (aggE x0 x1) (shapeCast Cert.KernelIdeal.S1x128 x3 Cert.KernelIdeal.Gen.shapeCasts_S128_S1x128)
    (fun r k => by rw [nb1, deg1]; exact agg_apply x0 (src x1) (dst x1) (dst x1) r k)
    (fun q => Cert.RowBias.castRow_apply x3 _ q)).symm

/-- The second layer. -/
theorem H2_eq : H2 x0 x1 x2 x3 x4 x5 x6 x7 = val_main_v59 (F := Ideal) x0 x1 x2 x3 x4 x5 x6 x7 := by
  unfold H2
  rw [H1_eq]
  exact (Cert.ReferenceIdeal.HandL.layer2_ref x0 x1 x2 x3 x4 x5 x6 x7 (aggE (val_main_v31 (F := Ideal) x0 x1 x2 x3 x4) x1) (shapeCast Cert.KernelIdeal.S1x128 x6 Cert.KernelIdeal.Gen.shapeCasts_S128_S1x128)
    (fun r k => by rw [nb2, deg2]; exact agg_apply _ (src x1) (dst x1) (dst x1) r k)
    (fun q => Cert.RowBias.castRow_apply x6 _ q)).symm

/-- The third layer. -/
theorem H3_eq : H3 x0 x1 x2 x3 x4 x5 x6 x7 x8 x9 x10 = val_main_v87 (F := Ideal) x0 x1 x2 x3 x4 x5 x6 x7 x8 x9 x10 := by
  unfold H3
  rw [H2_eq]
  exact (Cert.ReferenceIdeal.HandL.layer3_ref x0 x1 x2 x3 x4 x5 x6 x7 x8 x9 x10 (aggE (val_main_v59 (F := Ideal) x0 x1 x2 x3 x4 x5 x6 x7) x1) (shapeCast Cert.KernelIdeal.S1x64 x9 Cert.KernelIdeal.Gen.shapeCasts_S64_S1x64)
    (fun r k => by rw [nb3, deg3]; exact agg_apply _ (src x1) (dst x1) (dst x1) r k)
    (fun q => Cert.RowBias.castRow_apply x9 _ q)).symm

/-- The whole program: the kernel's result is the reference's. -/
theorem Out_eq : Out x0 x1 x2 x3 x4 x5 x6 x7 x8 x9 x10 x11 x12 = val_main_v99 (F := Ideal) x0 x1 x2 x3 x4 x5 x6 x7 x8 x9 x10 x11 x12 := by
  unfold Out
  rw [H3_eq]
  rw [← Cert.ReferenceIdeal.Hand3.readout_ref x0 x1 x2 x3 x4 x5 x6 x7 x8 x9 x10 x11 x12 (shapeCast Cert.KernelIdeal.S1x1 x12 Cert.KernelIdeal.Gen.shapeCasts_S1_S1x1)
    (Cert.RowBias.castRow_apply x12 _ (0 : Fin 1))]
  rfl

end Cert.Bridge

end
-- ==== Proof.lean ====
/-
  The certificate of a three-layer neighbourhood-mean graph network with a logistic read-out: the kernel program (three
  dense layers and the read-out as kernel regions, the gathers, scatter-adds and the degree factor on the host between
  them) against its plain reference.

  * Frames.  The two kernel programs' frames are the generated ones; the reference has no kernel, and its frame is its
    run with the result dropped.
  * The idealization rewrote nothing, so there is nothing to preserve.
  * Values at the extended reals.  The kernel program's run ends with its result buffer at the read-out of three stacked
    dense layers of the argument arrays, each layer's aggregated operand being the neighbourhood sums TIMES the reciprocal
    of the degree clamped to at least one.  The reference's run ends at the same composition with the sums DIVIDED by the
    clamped degree.  The clamped degree is never zero, so the product with its reciprocal is the quotient for every
    extended real: the two results are one array.  No finiteness of the inputs is used.
-/
import proofs.«140123_j20615843021436_2_alg».proof.Defs
import proofs.«140123_j20615843021436_2_alg».proof.Proof.Gen.Kernel
import proofs.«140123_j20615843021436_2_alg».proof.Proof.Gen.Kernel.Skeleton
import proofs.«140123_j20615843021436_2_alg».proof.Proof.Gen.Kernel.Launch
import proofs.«140123_j20615843021436_2_alg».proof.Proof.Gen.Kernel.Points
import proofs.«140123_j20615843021436_2_alg».proof.Proof.Gen.Kernel.Frame
import proofs.«140123_j20615843021436_2_alg».proof.Proof.Gen.KernelIdeal
import proofs.«140123_j20615843021436_2_alg».proof.Proof.Gen.KernelIdeal.Skeleton
import proofs.«140123_j20615843021436_2_alg».proof.Proof.Gen.KernelIdeal.Launch
import proofs.«140123_j20615843021436_2_alg».proof.Proof.Gen.KernelIdeal.Points
import proofs.«140123_j20615843021436_2_alg».proof.Proof.Gen.KernelIdeal.Frame
import proofs.«140123_j20615843021436_2_alg».proof.Proof.Gen.ReferenceIdeal
import proofs.«140123_j20615843021436_2_alg».proof.Proof.Gen.Pre_finite_inputs
import proofs.«140123_j20615843021436_2_alg».proof.Proof.Gen.ReferenceIdeal.Read
import proofs.«140123_j20615843021436_2_alg».proof.Proof.KRun
import proofs.«140123_j20615843021436_2_alg».proof.Proof.KHost
import proofs.«140123_j20615843021436_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two runs, from memories agreeing on the arguments, end with one result array: the read-out of three stacked dense
    layers of the arguments. -/
theorem algebraic : Cert.algebraic_KernelIdeal_ReferenceIdeal := by
  intro m ρ m' ρ' _ hagree
  refine ⟨fun c => Cert.KernelIdeal.HostVal.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Hand.run_all m ρ)
    exact ⟨(h c _ (Cert.KernelIdeal.Gen.mem_uc Cert.KernelIdeal.main_v57 (by decide))).trans (Cert.KernelIdeal.HostRun.result_value m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c),
      (h c _ (Cert.KernelIdeal.Gen.mem_uc Cert.KernelIdeal.main_arg12 (by decide))).trans (Cert.KernelIdeal.Gen.W9_main_arg12 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v99_eq]
    obtain ⟨e0, e1, e2, e3, e4, e5, e6, e7, e8, e9, e10, e11, e12⟩ := hagree c
    rw [e0, e1, e2, e3, e4, e5, e6, e7, e8, e9, e10, e11, e12]
    exact (Cert.Bridge.Out_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
